-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128x40 .f32) (main_arg9 : FVec F S128x40 .f32) (main_arg10 : FVec F S40 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128x128 .f32) (main_arg7 : FVec F S128 .f32) (main_arg8 : FVec F S128x40 .f32) (main_arg9 : FVec F S128x40 .f32) (main_arg10 : FVec F S40 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S128x40 .f32) (main_arg10 : FVec F S40 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100352x128 : Shape := ⟨2, ![100352, 128]⟩
abbrev S1x128 : Shape := ⟨2, ![1, 128]⟩
abbrev S2048x128 : Shape := ⟨2, ![2048, 128]⟩
abbrev S1x40 : Shape := ⟨2, ![1, 40]⟩
abbrev S100352x40 : Shape := ⟨2, ![100352, 40]⟩
abbrev S2048x40 : Shape := ⟨2, ![2048, 40]⟩
abbrev S2048 : Shape := ⟨1, ![2048]⟩
abbrev S2048x1 : Shape := ⟨2, ![2048, 1]⟩
abbrev S100000x40 : Shape := ⟨2, ![100000, 40]⟩

abbrev nBuf : Space → Nat
  | .hbm => 133
  | .vmem => 35
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x40, .f32⟩
  | 9 => ⟨S128x40, .f32⟩
  | 10 => ⟨S40, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S_, .i32⟩
  | 49 => ⟨S_, .f32⟩
  | 50 => ⟨S100352x128, .f32⟩
  | 51 => ⟨S_, .i32⟩
  | 52 => ⟨S_, .f32⟩
  | 53 => ⟨S100352x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S100352x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S_, .i32⟩
  | 87 => ⟨S_, .f32⟩
  | 88 => ⟨S100352x128, .f32⟩
  | 89 => ⟨S_, .i32⟩
  | 90 => ⟨S_, .f32⟩
  | 91 => ⟨S100352x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S100352x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S_, .i32⟩
  | 125 => ⟨S_, .f32⟩
  | 126 => ⟨S100352x128, .f32⟩
  | 127 => ⟨S_, .i32⟩
  | _ => ⟨S100000x128, .f32⟩

abbrev hbmTy0_1 (i : Nat) : BufTy := match i % 128 with
  | 0 => ⟨S_, .f32⟩
  | 1 => ⟨S100352x128, .f32⟩
  | 2 => ⟨S1x40, .f32⟩
  | 3 => ⟨S100352x40, .f32⟩
  | 4 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S128x40, .f32⟩
  | .local _ .vmem, ⟨31, _⟩ => ⟨S128x40, .f32⟩
  | .local _ .vmem, ⟨32, _⟩ => ⟨S1x40, .f32⟩
  | .local _ .vmem, ⟨33, _⟩ => ⟨S2048x40, .f32⟩
  | .local _ .vmem, ⟨34, _⟩ => ⟨S2048x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_call0_v0 : Ref sig .tc := ⟨.hbm, 49, rfl⟩
abbrev main_v23 : Ref sig .tc := ⟨.hbm, 50, rfl⟩
abbrev main_c_5 : Ref sig .tc := ⟨.hbm, 51, rfl⟩
abbrev main_call1_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_c_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_call2_v0 : Ref sig .tc := ⟨.hbm, 87, rfl⟩
abbrev main_v51 : Ref sig .tc := ⟨.hbm, 88, rfl⟩
abbrev main_c_13 : Ref sig .tc := ⟨.hbm, 89, rfl⟩
abbrev main_call3_v0 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_16 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_17 : Ref sig .tc := ⟨.hbm, 112, rfl⟩
abbrev main_v70 : Ref sig .tc := ⟨.hbm, 113, rfl⟩
abbrev main_cst_18 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_19 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_20 : Ref sig .tc := ⟨.hbm, 124, rfl⟩
abbrev main_call4_v0 : Ref sig .tc := ⟨.hbm, 125, rfl⟩
abbrev main_v79 : Ref sig .tc := ⟨.hbm, 126, rfl⟩
abbrev main_c_21 : Ref sig .tc := ⟨.hbm, 127, rfl⟩
abbrev main_call5_v0 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  pads_S100000x128_S100352x128_03520_000 : S100000x128.Pads (![0, 0] : Fin 2 → Nat) ![352, 0] ![0, 0] S100352x128
  h_S_ : 0 < S_.numel
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  shapeCasts_S2048_S2048x1 : S2048.ShapeCasts S2048x1
  broadcasts_S2048x1_S2048x40 : S2048x1.Broadcasts S2048x40
  inb_S2048x40_S2048x40_0_0 : ∀ a, (![0, 0] : Fin 2 → Nat) a + S2048x40.size a ≤ S2048x40.size a
  h_S2048x40 : 0 < S2048x40.numel
  slices_S100352x40_S100000x40_0_0 : S100352x40.Slices ![0, 0] S100000x40
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2048x128_S128x128_S2048x128_1_0_0_1_n_n_wf : DotDims.WF S2048x128 S128x128 S2048x128 [1] [0] [0] [1] [] []
  dot_S2048x128_S128x40_S2048x40_1_0_0_1_n_n_wf : DotDims.WF S2048x128 S128x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S100352x128.size a
  hwx0_1 : ∀ i : grid0.Coords, EltTy.bits .f32 = 32 ∨ (Rect.block (s := S100352x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S100352x128.size a
  hwx0_9 : ∀ i : grid0.Coords, EltTy.bits .f32 = 32 ∨ (Rect.block (s := S100352x128) S2048x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S100352x128.size a
  hwx1_1 : ∀ i : grid1.Coords, EltTy.bits .f32 = 32 ∨ (Rect.block (s := S100352x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S100352x128.size a
  hwx1_9 : ∀ i : grid1.Coords, EltTy.bits .f32 = 32 ∨ (Rect.block (s := S100352x128) S2048x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S100352x128.size a
  hwx2_0 : ∀ i : grid2.Coords, EltTy.bits .f32 = 32 ∨ (Rect.block (s := S100352x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S100352x128.size a
  hwx2_1 : ∀ i : grid2.Coords, EltTy.bits .f32 = 32 ∨ (Rect.block (s := S100352x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x40.size a ≤ S100352x40.size a
  hwx2_5 : ∀ i : grid2.Coords, EltTy.bits .f32 = 32 ∨ (Rect.block (s := S100352x40) S2048x40.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x40_S2048x40_1_0_0_1_n_n : DotDims S2048x128 S128x40 S2048x40 where
  lhsContracting := [1]
  rhsContracting := [0]
  lhsNonContracting := [0]
  rhsNonContracting := [1]
  lhsBatch := []
  rhsBatch := []
  wf := dot_S2048x128_S128x40_S2048x40_1_0_0_1_n_n_wf

abbrev win0_0 : Pipeline.Window sig grid0 :=
  Pipeline.Window.ofSpec (Memref.whole main_v23) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v51) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S2048x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v79) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S2048x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x40, .f32⟩
  | 9 => ⟨S128x40, .f32⟩
  | 10 => ⟨S40, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S_, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x40, .f32⟩
  | 21 => ⟨S100000x40, .f32⟩
  | 22 => ⟨S100000x40, .f32⟩
  | 23 => ⟨S1x40, .f32⟩
  | 24 => ⟨S100000x40, .f32⟩
  | 25 => ⟨S100000x40, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x40, .f32⟩
  | 33 => ⟨S100000x40, .f32⟩
  | 34 => ⟨S100000x40, .f32⟩
  | 35 => ⟨S_, .f32⟩
  | 36 => ⟨S100000, .f32⟩
  | 37 => ⟨S100000x1, .f32⟩
  | 38 => ⟨S100000x1, .f32⟩
  | 39 => ⟨S100000x40, .f32⟩
  | 40 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_c_12 : Ref sig .tc := ⟨.hbm, 123, rfl⟩
abbrev main_v86 : Ref sig .tc := ⟨.hbm, 124, rfl⟩
abbrev main_v87 : Ref sig .tc := ⟨.hbm, 125, rfl⟩
abbrev main_c_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_17 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call2_cst : Ref sig .tc := ⟨.hbm, 154, rfl⟩
abbrev main_call2_v0 : Ref sig .tc := ⟨.hbm, 155, rfl⟩
abbrev main_call2_cst_0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_cst_1 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_v111 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.Spec.lean ====
/-
  The mathematics both programs compute, as functions over the extended reals.

  A mean-aggregation graph layer takes the node features x and their neighbour means a (both n rows of 128 features)
  and returns, at node p and output feature q,

      s = Σ_k x[p,k]·Ws[k,q] + Σ_k a[p,k]·Wn[k,q] + b[q].

  Layers 1 and 2 then normalise with running statistics and clamp at zero:  max(((s − μ[q])·rsqrt(σ²[q] + ε))·γ[q] + β[q], 0).
  Layer 3 takes the log-softmax of each row of s (40 classes), the row maximum folded from −∞ and joined once more
  with −∞, exactly as both programs spell it.  Every entry of a result reads ONE row of x and of a: that row
  locality is what lets the kernel work on zero-padded arrays block by block.  The three float literals (ε, 0, −∞)
  stay the f32 words the programs print; the same word stands on both sides, so none is ever evaluated.
-/
import Idealize.ShloMosaic.PureOps.Ideal
import Idealize.ShloMosaic.Lib.ValueIdx

noncomputable section

namespace Cert.Sage

open Idealize.ShloMosaic Idealize.ShloMosaic.ValueIdx

/-- An [a, b] array and a length-a vector over the extended reals. -/
abbrev Mat (a b : ℕ) : Type := (⟨2, ![a, b]⟩ : Shape).Idx → EReal
abbrev Vct (a : ℕ) : Type := (⟨1, ![a]⟩ : Shape).Idx → EReal

/-- The f32 words of ε = 1e-5 (rounded), of zero and of −∞, as extended reals (kept as words). -/
abbrev epsW : EReal := Ideal.ofBits .f32 0x3727C5AC#32
abbrev zeroW : EReal := Ideal.ofBits .f32 0x00000000#32
abbrev negInfW : EReal := Ideal.ofBits .f32 0xFF800000#32

/-- A row times column q of a [128, c] matrix. -/
def dotRow {c : ℕ} (r : Fin 128 → EReal) (w : Mat 128 c) (q : Fin c) : EReal := ∑ k : Fin 128, r k * w (ix2 k q)

/-- The affine part of a layer at one entry: self term + neighbour term + bias. -/
def pre {c : ℕ} (xr ar : Fin 128 → EReal) (ws wn : Mat 128 c) (b : Fin c → EReal) (q : Fin c) : EReal :=
  (dotRow xr ws q + dotRow ar wn q) + b q

/-- Normalisation with running statistics, scale, shift, clamp at zero. -/
def bnCell (s g be mu var : EReal) : EReal := max ((((s - mu) * Ideal.rsqrt (var + epsW)) * g) + be) zeroW

/-- Entry q of a hidden layer's row, from that row of x and of the neighbour means. -/
def bnAt (xr ar : Fin 128 → EReal) (ws wn : Mat 128 128) (b g be mu var : Fin 128 → EReal) (q : Fin 128) : EReal :=
  bnCell (pre xr ar ws wn b q) (g q) (be q) (mu q) (var q)

/-- A row's maximum: folded from −∞, then joined with −∞ once more. -/
def rowTop {c : ℕ} (v : Fin c → EReal) : EReal := max negInfW ((Finset.univ : Finset (Fin c)).fold max negInfW v)

/-- The log-softmax of a row at column q. -/
def lsRow {c : ℕ} (v : Fin c → EReal) (q : Fin c) : EReal :=
  (v q - rowTop v) - Ideal.log (∑ j : Fin c, Ideal.exp (v j - rowTop v))

/-- Entry q of the output layer's row. -/
def lsAt (xr ar : Fin 128 → EReal) (ws wn : Mat 128 40) (b : Fin 40 → EReal) (q : Fin 40) : EReal :=
  lsRow (pre xr ar ws wn b) q

/-- Row p of a matrix. -/
def rowOf {n c : ℕ} (x : Mat n c) (p : Fin n) : Fin c → EReal := fun k => x (ix2 p k)

/-- A hidden layer on whole arrays. -/
def bnLayer {n : ℕ} (x a : Mat n 128) (ws wn : Mat 128 128) (b g be mu var : Fin 128 → EReal) : Mat n 128 :=
  fun i => bnAt (rowOf x (i 0)) (rowOf a (i 0)) ws wn b g be mu var (i 1)

/-- The output layer on whole arrays. -/
def lsLayer {n : ℕ} (x a : Mat n 128) (ws wn : Mat 128 40) (b : Fin 40 → EReal) : Mat n 40 :=
  fun i => lsAt (rowOf x (i 0)) (rowOf a (i 0)) ws wn b (i 1)

theorem bnLayer_apply {n : ℕ} (x a : Mat n 128) (ws wn : Mat 128 128) (b g be mu var : Fin 128 → EReal) (p : Fin n) (q : Fin 128) :
    bnLayer x a ws wn b g be mu var (ix2 p q) = bnAt (rowOf x p) (rowOf a p) ws wn b g be mu var q := rfl

theorem lsLayer_apply {n : ℕ} (x a : Mat n 128) (ws wn : Mat 128 40) (b : Fin 40 → EReal) (p : Fin n) (q : Fin 40) :
    lsLayer x a ws wn b (ix2 p q) = lsAt (rowOf x p) (rowOf a p) ws wn b q := rfl

/-- The three-layer network over n nodes, the neighbour-mean operator `nb` a parameter: two hidden layers, then the
    log-softmax layer, each fed the previous layer's features and their neighbour means. -/
def net {n : ℕ} (nb : Mat n 128 → Mat n 128) (x : Mat n 128)
    (ws1 wn1 : Mat 128 128) (b1 : Fin 128 → EReal) (ws2 wn2 : Mat 128 128) (b2 : Fin 128 → EReal)
    (ws3 wn3 : Mat 128 40) (b3 : Fin 40 → EReal)
    (g1 be1 mu1 var1 g2 be2 mu2 var2 : Fin 128 → EReal) : Mat n 40 :=
  lsLayer (bnLayer (bnLayer x (nb x) ws1 wn1 b1 g1 be1 mu1 var1) (nb (bnLayer x (nb x) ws1 wn1 b1 g1 be1 mu1 var1)) ws2 wn2 b2 g2 be2 mu2 var2)
    (nb (bnLayer (bnLayer x (nb x) ws1 wn1 b1 g1 be1 mu1 var1) (nb (bnLayer x (nb x) ws1 wn1 b1 g1 be1 mu1 var1)) ws2 wn2 b2 g2 be2 mu2 var2))
    ws3 wn3 b3

/-- A length-c vector as a function of the column. -/
def ofVct {c : ℕ} (v : Vct c) : Fin c → EReal := fun q => v (ix1 q)

/-- Row 0 of a [1, c] array as a function of the column. -/
def ofRow {c : ℕ} (v : Mat 1 c) : Fin c → EReal := fun q => v (ix2 (0 : Fin 1) q)

end Cert.Sage

end
-- ==== Proof.RefLayers.lean ====
/-
  The reference program is the network of the specification.

  Its neighbour mean is one chain of host operations (gather the source rows, add them into their target rows, count
  the targets, divide) applied three times: to the input features, to the first hidden layer and to the second. The
  chain is kept whole as the function `agg`; nothing here reads a gather or a scatter at an index. Each hidden
  layer, read at node p and feature q, is two row-by-column sums plus the bias, centred, scaled by the reciprocal
  square root of the variance plus ε, scaled and shifted, and joined with zero; the last layer is the same affine
  part followed by the log-softmax of row p, whose maximum is a fold of max over the 40 columns from −∞, joined
  with −∞ once more, and whose sum starts from the zero word.
-/
import proofs.«136776_j22454089023509_1_alg».proof.Proof.ReadP
import proofs.«136776_j22454089023509_1_alg».proof.Proof.Spec
import Idealize.ShloMosaic.PureOps.Reduce
import Idealize.ShloMosaic.PureOps.Ideal.Laws

noncomputable section

namespace Cert.Sage.Ref

open Cert.ReferenceIdeal Cert.ReferenceIdeal.Gen Cert.ReferenceIdeal.ReadP Idealize.ShloMosaic Idealize.ShloMosaic.ValueIdx

/-- The neighbour mean of the features `h` along the edges `e`: the reference's own chain of host operations. -/
def agg (h : (⟨S100000x128, .f32⟩ : BufTy).Contents (Elt Ideal)) (e : (⟨S2x1600000, .i32⟩ : BufTy).Contents (Elt Ideal)) :
    (⟨S100000x128, .f32⟩ : BufTy).Contents (Elt Ideal) :=
  val_main_v22 (F := Ideal) h e

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 x9 : (⟨S128x40, .f32⟩ : BufTy).Contents (Elt Ideal)) (x10 : (⟨S40, .f32⟩ : BufTy).Contents (Elt Ideal))
  (x11 x12 x13 x14 x15 x16 x17 x18 : (⟨S128, .f32⟩ : BufTy).Contents (Elt Ideal))

/-! ## The neighbour mean of a hidden layer is the same chain -/

/-- The second neighbour mean is `agg` of the first hidden layer: operation for operation the same chain. -/
theorem agg2_eq : val_main_v63 (F := Ideal) x0 x1 x2 x3 x4 x11 x12 x13 x14 = agg (val_main_v44 (F := Ideal) x0 x1 x2 x3 x4 x11 x12 x13 x14) x1 := by
  unfold agg
  unfold val_main_v63 val_main_v54 val_main_v51 val_main_v50 val_main_v49 val_main_v46 val_main_v45 val_main_c_5
    val_main_v48 val_main_v47 val_main_c_6 val_main_v52 val_main_cst_7 val_main_v53 val_main_v62 val_main_v61
    val_main_v60 val_main_v58 val_main_v56 val_main_cst_9 val_main_v57 val_main_v55 val_main_cst_8 val_main_v59
    val_main_cst_10
  unfold val_main_v22 val_main_v13 val_main_v10 val_main_v9 val_main_v8 val_main_v5 val_main_v4 val_main_c
    val_main_v7 val_main_v6 val_main_c_0 val_main_v11 val_main_cst val_main_v12 val_main_v21 val_main_v20
    val_main_v19 val_main_v17 val_main_v15 val_main_cst_2 val_main_v16 val_main_v14 val_main_cst_1 val_main_v18
    val_main_cst_3
  rfl

/-- The third neighbour mean is `agg` of the second hidden layer. -/
theorem agg3_eq : val_main_v104 (F := Ideal) x0 x1 x2 x3 x4 x5 x6 x7 x11 x12 x13 x14 x15 x16 x17 x18 = agg (val_main_v85 (F := Ideal) x0 x1 x2 x3 x4 x5 x6 x7 x11 x12 x13 x14 x15 x16 x17 x18) x1 := by
  unfold agg
  unfold val_main_v104 val_main_v95 val_main_v92 val_main_v91 val_main_v90 val_main_v87 val_main_v86 val_main_c_12
    val_main_v89 val_main_v88 val_main_c_13 val_main_v93 val_main_cst_14 val_main_v94 val_main_v103 val_main_v102
    val_main_v101 val_main_v99 val_main_v97 val_main_cst_16 val_main_v98 val_main_v96 val_main_cst_15 val_main_v100
    val_main_cst_17
  unfold val_main_v22 val_main_v13 val_main_v10 val_main_v9 val_main_v8 val_main_v5 val_main_v4 val_main_c
    val_main_v7 val_main_v6 val_main_c_0 val_main_v11 val_main_cst val_main_v12 val_main_v21 val_main_v20
    val_main_v19 val_main_v17 val_main_v15 val_main_cst_2 val_main_v16 val_main_v14 val_main_cst_1 val_main_v18
    val_main_cst_3
  rfl

/-! ## One entry of a layer, over arbitrary arrays -/

/-- The affine part at node p, column j, written with the host's operations, is the specification's `pre`. -/
theorem pre_point {c : ℕ} (h a : (⟨S100000x128, .f32⟩ : BufTy).Contents (Elt Ideal))
    (ws wn : (⟨⟨2, ![128, c]⟩, .f32⟩ : BufTy).Contents (Elt Ideal)) (b : (⟨⟨1, ![c]⟩, .f32⟩ : BufTy).Contents (Elt Ideal))
    (p : Fin 100000) (j : Fin c) :
    FloatOps.addf (F := Ideal) (φ := .f32)
        (FloatOps.addf (F := Ideal) (φ := .f32) (∑ k : Fin 128, h (ix2 p k) * ws (ix2 k j)) (∑ k : Fin 128, a (ix2 p k) * wn (ix2 k j)))
        (b (ix1 j))
      = pre (rowOf (n := 100000) h p) (rowOf (n := 100000) a p) ws wn (ofVct (c := c) b) j := rfl

/-- A hidden layer's entry at node p, feature q, written with the host's operations, is the specification's. -/
theorem bn_point (h a : (⟨S100000x128, .f32⟩ : BufTy).Contents (Elt Ideal)) (ws wn : (⟨S128x128, .f32⟩ : BufTy).Contents (Elt Ideal))
    (b g be mu var : (⟨S128, .f32⟩ : BufTy).Contents (Elt Ideal)) (p : Fin 100000) (q : Fin 128) :
    FloatOps.maximumf (F := Ideal) (φ := .f32)
        (FloatOps.addf (F := Ideal) (φ := .f32)
          (FloatOps.mulf (F := Ideal) (φ := .f32)
            (FloatOps.mulf (F := Ideal) (φ := .f32)
              (FloatOps.subf (F := Ideal) (φ := .f32)
                (FloatOps.addf (F := Ideal) (φ := .f32)
                  (FloatOps.addf (F := Ideal) (φ := .f32) (∑ k : Fin 128, h (ix2 p k) * ws (ix2 k q)) (∑ k : Fin 128, a (ix2 p k) * wn (ix2 k q)))
                  (b (ix1 q)))
                (mu (ix1 q)))
              (FloatOps.hostUnary (F := Ideal) (φ := .f32) .rsqrt
                (FloatOps.addf (F := Ideal) (φ := .f32) (var (ix1 q)) (FloatOps.ofBits (F := Ideal) .f32 0x3727C5AC#32))))
            (g (ix1 q)))
          (be (ix1 q)))
        (FloatOps.ofBits (F := Ideal) .f32 0x00000000#32)
      = bnLayer (n := 100000) h a ws wn (ofVct (c := 128) b) (ofVct (c := 128) g) (ofVct (c := 128) be) (ofVct (c := 128) mu)
          (ofVct (c := 128) var) (ix2 p q) := rfl

/-! ## The hidden layers -/

/-- The first hidden layer is the specification's, on the input features and their neighbour mean. -/
theorem layer1_eq : val_main_v44 (F := Ideal) x0 x1 x2 x3 x4 x11 x12 x13 x14
    = bnLayer (n := 100000) x0 (agg x0 x1) x2 x3 (ofVct (c := 128) x4) (ofVct (c := 128) x11) (ofVct (c := 128) x12)
        (ofVct (c := 128) x13) (ofVct (c := 128) x14) := by
  funext i
  obtain ⟨p, q, rfl⟩ : ∃ (p : Fin 100000) (q : Fin 128), i = ix2 p q := ⟨i 0, i 1, eq_ix2 i⟩
  rw [val_main_v44_apply, val_main_v43_apply, val_main_v40_apply, val_main_v37_apply, val_main_v31_apply,
    val_main_v28_apply, val_main_v25_apply, val_main_v23_apply, val_main_v24_apply, val_main_v27_apply,
    val_main_v26_apply, val_main_v30_apply, val_main_v29_apply, val_main_v36_apply, val_main_v35_apply,
    val_main_v34_apply, val_main_v33_apply, val_main_v32_apply, val_main_cst_4_apply, val_main_v39_apply,
    val_main_v38_apply, val_main_v42_apply, val_main_v41_apply, val_main_call0_v0_apply, val_main_call0_cst_apply]
  have eb : idx_main_v26 (idx_main_v27 (ix2 p q)) = ix1 q := funext fun a => Fin.ext (by match a with | ⟨0, _⟩ => rfl)
  have em : idx_main_v29 (idx_main_v30 (ix2 p q)) = ix1 q := funext fun a => Fin.ext (by match a with | ⟨0, _⟩ => rfl)
  have ev : idx_main_v35 (idx_main_v36 (ix2 p q)) = ix1 q := funext fun a => Fin.ext (by match a with | ⟨0, _⟩ => rfl)
  have eg : idx_main_v38 (idx_main_v39 (ix2 p q)) = ix1 q := funext fun a => Fin.ext (by match a with | ⟨0, _⟩ => rfl)
  have ee : idx_main_v41 (idx_main_v42 (ix2 p q)) = ix1 q := funext fun a => Fin.ext (by match a with | ⟨0, _⟩ => rfl)
  have el : ∀ k : Fin 128, lidx_main_v23 (ix2 p q) k = ix2 p k := fun k => funext fun a => Fin.ext (by
    match a with | ⟨0, _⟩ => rfl | ⟨1, _⟩ => rfl)
  have er : ∀ k : Fin 128, ridx_main_v23 (ix2 p q) k = ix2 k q := fun k => funext fun a => Fin.ext (by
    match a with | ⟨0, _⟩ => rfl | ⟨1, _⟩ => rfl)
  have el' : ∀ k : Fin 128, lidx_main_v24 (ix2 p q) k = ix2 p k := fun k => funext fun a => Fin.ext (by
    match a with | ⟨0, _⟩ => rfl | ⟨1, _⟩ => rfl)
  have er' : ∀ k : Fin 128, ridx_main_v24 (ix2 p q) k = ix2 k q := fun k => funext fun a => Fin.ext (by
    match a with | ⟨0, _⟩ => rfl | ⟨1, _⟩ => rfl)
  simp only [eb, em, ev, eg, ee, el, er, el', er']
  unfold agg
  exact bn_point x0 (val_main_v22 (F := Ideal) x0 x1) x2 x3 x4 x11 x12 x13 x14 p q

/-- The second hidden layer is the specification's, on the first hidden layer and its neighbour mean. -/
theorem layer2_eq : val_main_v85 (F := Ideal) x0 x1 x2 x3 x4 x5 x6 x7 x11 x12 x13 x14 x15 x16 x17 x18
    = bnLayer (n := 100000) (val_main_v44 (F := Ideal) x0 x1 x2 x3 x4 x11 x12 x13 x14) (val_main_v63 (F := Ideal) x0 x1 x2 x3 x4 x11 x12 x13 x14) x5 x6
        (ofVct (c := 128) x7) (ofVct (c := 128) x15) (ofVct (c := 128) x16) (ofVct (c := 128) x17) (ofVct (c := 128) x18) := by
  funext i
  obtain ⟨p, q, rfl⟩ : ∃ (p : Fin 100000) (q : Fin 128), i = ix2 p q := ⟨i 0, i 1, eq_ix2 i⟩
  rw [val_main_v85_apply, val_main_v84_apply, val_main_v81_apply, val_main_v78_apply, val_main_v72_apply,
    val_main_v69_apply, val_main_v66_apply, val_main_v64_apply, val_main_v65_apply, val_main_v68_apply,
    val_main_v67_apply, val_main_v71_apply, val_main_v70_apply, val_main_v77_apply, val_main_v76_apply,
    val_main_v75_apply, val_main_v74_apply, val_main_v73_apply, val_main_cst_11_apply, val_main_v80_apply,
    val_main_v79_apply, val_main_v83_apply, val_main_v82_apply, val_main_call1_v0_apply, val_main_call1_cst_apply]
  have eb : idx_main_v67 (idx_main_v68 (ix2 p q)) = ix1 q := funext fun a => Fin.ext (by match a with | ⟨0, _⟩ => rfl)
  have em : idx_main_v70 (idx_main_v71 (ix2 p q)) = ix1 q := funext fun a => Fin.ext (by match a with | ⟨0, _⟩ => rfl)
  have ev : idx_main_v76 (idx_main_v77 (ix2 p q)) = ix1 q := funext fun a => Fin.ext (by match a with | ⟨0, _⟩ => rfl)
  have eg : idx_main_v79 (idx_main_v80 (ix2 p q)) = ix1 q := funext fun a => Fin.ext (by match a with | ⟨0, _⟩ => rfl)
  have ee : idx_main_v82 (idx_main_v83 (ix2 p q)) = ix1 q := funext fun a => Fin.ext (by match a with | ⟨0, _⟩ => rfl)
  have el : ∀ k : Fin 128, lidx_main_v64 (ix2 p q) k = ix2 p k := fun k => funext fun a => Fin.ext (by
    match a with | ⟨0, _⟩ => rfl | ⟨1, _⟩ => rfl)
  have er : ∀ k : Fin 128, ridx_main_v64 (ix2 p q) k = ix2 k q := fun k => funext fun a => Fin.ext (by
    match a with | ⟨0, _⟩ => rfl | ⟨1, _⟩ => rfl)
  have el' : ∀ k : Fin 128, lidx_main_v65 (ix2 p q) k = ix2 p k := fun k => funext fun a => Fin.ext (by
    match a with | ⟨0, _⟩ => rfl | ⟨1, _⟩ => rfl)
  have er' : ∀ k : Fin 128, ridx_main_v65 (ix2 p q) k = ix2 k q := fun k => funext fun a => Fin.ext (by
    match a with | ⟨0, _⟩ => rfl | ⟨1, _⟩ => rfl)
  simp only [eb, em, ev, eg, ee, el, er, el', er']
  exact bn_point (val_main_v44 (F := Ideal) x0 x1 x2 x3 x4 x11 x12 x13 x14) (val_main_v63 (F := Ideal) x0 x1 x2 x3 x4 x11 x12 x13 x14) x5 x6 x7 x15 x16 x17 x18 p q

/-! ## The output layer -/

/-- The affine part of the output layer at node p, class j. -/
theorem pre3_eq (p : Fin 100000) (j : Fin 40) : val_main_v110 (F := Ideal) x0 x1 x2 x3 x4 x5 x6 x7 x8 x9 x10 x11 x12 x13 x14 x15 x16 x17 x18 (ix2 p j)
    = pre (rowOf (n := 100000) (val_main_v85 (F := Ideal) x0 x1 x2 x3 x4 x5 x6 x7 x11 x12 x13 x14 x15 x16 x17 x18) p)
        (rowOf (n := 100000) (val_main_v104 (F := Ideal) x0 x1 x2 x3 x4 x5 x6 x7 x11 x12 x13 x14 x15 x16 x17 x18) p) x8 x9 (ofVct (c := 40) x10) j := by
  rw [val_main_v110_apply, val_main_v107_apply, val_main_v105_apply, val_main_v106_apply, val_main_v109_apply,
    val_main_v108_apply]
  have eb : idx_main_v108 (idx_main_v109 (ix2 p j)) = ix1 j := funext fun a => Fin.ext (by match a with | ⟨0, _⟩ => rfl)
  have el : ∀ k : Fin 128, lidx_main_v105 (ix2 p j) k = ix2 p k := fun k => funext fun a => Fin.ext (by
    match a with | ⟨0, _⟩ => rfl | ⟨1, _⟩ => rfl)
  have er : ∀ k : Fin 128, ridx_main_v105 (ix2 p j) k = ix2 k j := fun k => funext fun a => Fin.ext (by
    match a with | ⟨0, _⟩ => rfl | ⟨1, _⟩ => rfl)
  have el' : ∀ k : Fin 128, lidx_main_v106 (ix2 p j) k = ix2 p k := fun k => funext fun a => Fin.ext (by
    match a with | ⟨0, _⟩ => rfl | ⟨1, _⟩ => rfl)
  have er' : ∀ k : Fin 128, ridx_main_v106 (ix2 p j) k = ix2 k j := fun k => funext fun a => Fin.ext (by
    match a with | ⟨0, _⟩ => rfl | ⟨1, _⟩ => rfl)
  simp only [eb, el, er, el', er']
  exact pre_point (val_main_v85 (F := Ideal) x0 x1 x2 x3 x4 x5 x6 x7 x11 x12 x13 x14 x15 x16 x17 x18) (val_main_v104 (F := Ideal) x0 x1 x2 x3 x4 x5 x6 x7 x11 x12 x13 x14 x15 x16 x17 x18) x8 x9 x10 p j

/-- Result row p with column k put back on the reduced axis is (p, k). -/
theorem lift_row (h : S100000x40.Reduces [1] S100000) (p : Fin 100000) (k : Fin (S100000x40.size 1)) :
    h.lift (ix1 p) k = ix2 p (⟨k.val, k.isLt⟩ : Fin 40) := by
  funext c; apply Fin.ext
  fin_cases c <;> rfl

/-- The host's maximum over the 40 columns of row p, from −∞: the fold of max over that row. -/
theorem hostMax_row (z : (⟨S100000x40, .f32⟩ : BufTy).Contents (Elt Ideal)) (p : Fin 100000) :
    Host.reduce (FloatOps.maximumf (F := Ideal) (φ := .f32)) z (constant (F := Ideal) S_ .f32 0xFF800000#32)
        reducesTo_S100000x40_S100000_d1 h_S_ (ix1 p)
      = (Finset.univ : Finset (Fin 40)).fold max negInfW (rowOf (n := 100000) (c := 40) z p) := by
  have h : S100000x40.Reduces [1] S100000 := by decide
  rw [Host.reduce_eq_fold_single (FloatOps.maximumf (F := Ideal) (φ := .f32)) z _ reducesTo_S100000x40_S100000_d1 h h_S_]
  have hf : (z ∘ h.lift (ix1 p)) = fun k : Fin (S100000x40.size 1) => z (ix2 p (⟨k.val, k.isLt⟩ : Fin 40)) :=
    funext fun k => congrArg z (lift_row h p k)
  rw [hf]
  rfl

/-- The log-softmax of the reference at node p, class q, from the affine part's row p. -/
theorem ls_read (p : Fin 100000) (q : Fin 40) : val_main_v111 (F := Ideal) x0 x1 x2 x3 x4 x5 x6 x7 x8 x9 x10 x11 x12 x13 x14 x15 x16 x17 x18 (ix2 p q)
    = lsRow (rowOf (n := 100000) (c := 40) (val_main_v110 (F := Ideal) x0 x1 x2 x3 x4 x5 x6 x7 x8 x9 x10 x11 x12 x13 x14 x15 x16 x17 x18) p) q := by
  have e34 : ∀ j : Fin 40, idx_main_call2_v3 (idx_main_call2_v4 (ix2 p j)) = ix1 p := fun j => funext fun a => Fin.ext (by
    match a with | ⟨0, _⟩ => rfl)
  have e810 : idx_main_call2_v8 (idx_main_call2_v10 (ix2 p q)) = ix1 p := funext fun a => Fin.ext (by
    match a with | ⟨0, _⟩ => rfl)
  have e7 : ∀ k : Fin 40, idx_main_call2_v7 (ix1 p) k = ix2 p k := fun k => funext fun a => Fin.ext (by
    match a with | ⟨0, _⟩ => rfl | ⟨1, _⟩ => rfl)
  have htop : ∀ j : Fin 40, val_main_call2_v4 (F := Ideal) x0 x1 x2 x3 x4 x5 x6 x7 x8 x9 x10 x11 x12 x13 x14 x15 x16 x17 x18 (ix2 p j)
      = rowTop (rowOf (n := 100000) (c := 40) (val_main_v110 (F := Ideal) x0 x1 x2 x3 x4 x5 x6 x7 x8 x9 x10 x11 x12 x13 x14 x15 x16 x17 x18) p) := by
    intro j
    rw [val_main_call2_v4_apply, val_main_call2_v3_apply, val_main_call2_v2_apply, val_main_call2_v1_apply,
      val_main_call2_cst_0_apply, e34 j]
    unfold val_main_call2_v0 val_main_call2_cst
    generalize val_main_v110 (F := Ideal) x0 x1 x2 x3 x4 x5 x6 x7 x8 x9 x10 x11 x12 x13 x14 x15 x16 x17 x18 = z
    rw [hostMax_row z p]
    rfl
  rw [val_main_v111_apply, val_main_call2_v5_apply, htop q, val_main_call2_v10_apply, val_main_call2_v9_apply,
    val_main_call2_v8_apply, e810, val_main_call2_v7_apply, val_main_call2_cst_1_apply]
  simp only [e7, val_main_call2_v6_apply, val_main_call2_v5_apply, htop]
  simp only [Ideal.ofBits_def, Ideal.ofBits_zero_f32, zero_add]
  rfl

/-- The output layer is the specification's, on the second hidden layer and its neighbour mean. -/
theorem layer3_eq : val_main_v111 (F := Ideal) x0 x1 x2 x3 x4 x5 x6 x7 x8 x9 x10 x11 x12 x13 x14 x15 x16 x17 x18
    = lsLayer (n := 100000) (val_main_v85 (F := Ideal) x0 x1 x2 x3 x4 x5 x6 x7 x11 x12 x13 x14 x15 x16 x17 x18) (val_main_v104 (F := Ideal) x0 x1 x2 x3 x4 x5 x6 x7 x11 x12 x13 x14 x15 x16 x17 x18) x8 x9
        (ofVct (c := 40) x10) := by
  funext i
  obtain ⟨p, q, rfl⟩ : ∃ (p : Fin 100000) (q : Fin 40), i = ix2 p q := ⟨i 0, i 1, eq_ix2 i⟩
  rw [ls_read, lsLayer_apply]
  unfold lsAt
  have hrow : rowOf (n := 100000) (c := 40) (val_main_v110 (F := Ideal) x0 x1 x2 x3 x4 x5 x6 x7 x8 x9 x10 x11 x12 x13 x14 x15 x16 x17 x18) p
      = pre (rowOf (n := 100000) (val_main_v85 (F := Ideal) x0 x1 x2 x3 x4 x5 x6 x7 x11 x12 x13 x14 x15 x16 x17 x18) p)
          (rowOf (n := 100000) (val_main_v104 (F := Ideal) x0 x1 x2 x3 x4 x5 x6 x7 x11 x12 x13 x14 x15 x16 x17 x18) p) x8 x9 (ofVct (c := 40) x10) :=
    funext fun j => pre3_eq x0 x1 x2 x3 x4 x5 x6 x7 x8 x9 x10 x11 x12 x13 x14 x15 x16 x17 x18 p j
  rw [hrow]

/-! ## The whole reference -/

/-- The reference's result is the specification's network with `agg` along the given edges as its neighbour mean. -/
theorem result_eq : val_main_v111 (F := Ideal) x0 x1 x2 x3 x4 x5 x6 x7 x8 x9 x10 x11 x12 x13 x14 x15 x16 x17 x18
    = net (n := 100000) (fun h => agg h x1) x0 x2 x3 (ofVct (c := 128) x4) x5 x6 (ofVct (c := 128) x7) x8 x9
        (ofVct (c := 40) x10) (ofVct (c := 128) x11) (ofVct (c := 128) x12) (ofVct (c := 128) x13) (ofVct (c := 128) x14)
        (ofVct (c := 128) x15) (ofVct (c := 128) x16) (ofVct (c := 128) x17) (ofVct (c := 128) x18) := by
  rw [layer3_eq, agg3_eq, layer2_eq, agg2_eq, layer1_eq]
  rfl

end Cert.Sage.Ref

end
-- ==== Proof.KHost.lean ====
/-
  The host operations of the kernel program between its regions, read on an arbitrary valuation of the buffers.

  Each stretch of host operations before a region does the same three things: it forms the neighbour means of the
  current node features (gather the source rows, scatter-add them at the destinations, divide by the in-degree clamped
  below at one — one fixed chain of operations, named `aggSD` here and never opened), pads the features and the means
  with 352 rows, and reshapes the layer's row vectors to [1, c] rows.  Stated for ANY contents W of the buffers the
  stretch starts from, each lemma says what one buffer holds afterwards as a function of the buffers it reads.
-/
import proofs.«136776_j22454089023509_1_alg».proof.Proof.Gen.KernelIdeal.Frame
import Idealize.ShloMosaic.PureOps.Ideal
import Idealize.ShloMosaic.Lib.StableHlo.Run

set_option maxRecDepth 16384
set_option maxHeartbeats 4000000

noncomputable section

namespace Cert.Sage.KHost

open Cert.KernelIdeal Cert.KernelIdeal.Gen
open Idealize.ShloMosaic Idealize.ShloMosaic.TcCoe Idealize.SL.Sem Idealize.ShloMosaic.StableHlo

/-- The source and the destination node of every edge: rows 0 and 1 of the edge array. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The neighbour means of the features h over the edges (src, dst): the sum over incoming edges of the source's
    row, divided by the in-degree clamped below at one — as the chain of host operations both programs print. -/
def aggSD (h : FVec Ideal S100000x128 .f32) (src dst : (⟨S1600000, .i32⟩ : BufTy).Contents (Elt Ideal)) :
    FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

variable (W : Valuation τ sig (Elt Ideal))

/-! ## Stretch 0 -/

theorem src0 : StableHlo.after (hostOps0 (F := Ideal)) W (Proc.devRef .tc main_v1) = srcOf (W (Proc.devRef .tc main_arg1)) := by
  after_results
  rfl

theorem dst0 : StableHlo.after (hostOps0 (F := Ideal)) W (Proc.devRef .tc main_v3) = dstOf (W (Proc.devRef .tc main_arg1)) := by
  after_results
  rfl

theorem agg0 : StableHlo.after (hostOps0 (F := Ideal)) W (Proc.devRef .tc main_v22)
    = aggSD (W (Proc.devRef .tc main_arg0)) (srcOf (W (Proc.devRef .tc main_arg1))) (dstOf (W (Proc.devRef .tc main_arg1))) := by
  after_results
  rfl

/-- Stretch 0, after the aggregation: the features padded to 100352 rows (the padding value is immaterial). -/
theorem padX0 : ∃ z, (StableHlo.after (hostOps0_4 (F := Ideal)) (StableHlo.after (hostOps0_3 (F := Ideal)) (StableHlo.after (hostOps0_2 (F := Ideal)) (StableHlo.after (hostOps0_1 (F := Ideal)) W)))) (Proc.devRef .tc main_v23) = pad S100352x128 ![0, 0] ![352, 0] ![0, 0] (W (Proc.devRef .tc main_arg0)) z pads_S100000x128_S100352x128_03520_000 h_S_ := by
  refine ⟨?z, ?h⟩
  case h =>
    after_results
    rfl

/-- … and the neighbour means padded likewise. -/
theorem padA0 : ∃ z, (StableHlo.after (hostOps0_4 (F := Ideal)) (StableHlo.after (hostOps0_3 (F := Ideal)) (StableHlo.after (hostOps0_2 (F := Ideal)) (StableHlo.after (hostOps0_1 (F := Ideal)) W)))) (Proc.devRef .tc main_v24) = pad S100352x128 ![0, 0] ![352, 0] ![0, 0] (W (Proc.devRef .tc main_v22)) z pads_S100000x128_S100352x128_03520_000 h_S_ := by
  refine ⟨?z, ?h⟩
  case h =>
    after_results
    rfl

theorem row0_main_v25 : (StableHlo.after (hostOps0_4 (F := Ideal)) (StableHlo.after (hostOps0_3 (F := Ideal)) (StableHlo.after (hostOps0_2 (F := Ideal)) (StableHlo.after (hostOps0_1 (F := Ideal)) W)))) (Proc.devRef .tc main_v25) = shapeCast S1x128 (W (Proc.devRef .tc main_arg4)) shapeCasts_S128_S1x128 := by
  after_results
  rfl

theorem row0_main_v26 : (StableHlo.after (hostOps0_4 (F := Ideal)) (StableHlo.after (hostOps0_3 (F := Ideal)) (StableHlo.after (hostOps0_2 (F := Ideal)) (StableHlo.after (hostOps0_1 (F := Ideal)) W)))) (Proc.devRef .tc main_v26) = shapeCast S1x128 (W (Proc.devRef .tc main_arg11)) shapeCasts_S128_S1x128 := by
  after_results
  rfl

theorem row0_main_v27 : (StableHlo.after (hostOps0_4 (F := Ideal)) (StableHlo.after (hostOps0_3 (F := Ideal)) (StableHlo.after (hostOps0_2 (F := Ideal)) (StableHlo.after (hostOps0_1 (F := Ideal)) W)))) (Proc.devRef .tc main_v27) = shapeCast S1x128 (W (Proc.devRef .tc main_arg12)) shapeCasts_S128_S1x128 := by
  after_results
  rfl

theorem row0_main_v28 : (StableHlo.after (hostOps0_4 (F := Ideal)) (StableHlo.after (hostOps0_3 (F := Ideal)) (StableHlo.after (hostOps0_2 (F := Ideal)) (StableHlo.after (hostOps0_1 (F := Ideal)) W)))) (Proc.devRef .tc main_v28) = shapeCast S1x128 (W (Proc.devRef .tc main_arg13)) shapeCasts_S128_S1x128 := by
  after_results
  rfl

theorem row0_main_v29 : (StableHlo.after (hostOps0_4 (F := Ideal)) (StableHlo.after (hostOps0_3 (F := Ideal)) (StableHlo.after (hostOps0_2 (F := Ideal)) (StableHlo.after (hostOps0_1 (F := Ideal)) W)))) (Proc.devRef .tc main_v29) = shapeCast S1x128 (W (Proc.devRef .tc main_arg14)) shapeCasts_S128_S1x128 := by
  after_results
  rfl

/-! ## Stretch 1 -/

theorem feat1 : StableHlo.after (hostOps1 (F := Ideal)) W (Proc.devRef .tc main_v31) = extractStridedSlice S100000x128 ![0, 0] (W (Proc.devRef .tc main_v30)) slices_S100352x128_S100000x128_0_0 := by
  after_results

theorem agg1 : StableHlo.after (hostOps1 (F := Ideal)) W (Proc.devRef .tc main_v50)
    = aggSD (extractStridedSlice S100000x128 ![0, 0] (W (Proc.devRef .tc main_v30)) slices_S100352x128_S100000x128_0_0) (W (Proc.devRef .tc main_v1)) (W (Proc.devRef .tc main_v3)) := by
  after_results
  rfl

/-- Stretch 1, after the aggregation: the features padded to 100352 rows (the padding value is immaterial). -/
theorem padX1 : ∃ z, (StableHlo.after (hostOps1_4 (F := Ideal)) (StableHlo.after (hostOps1_3 (F := Ideal)) (StableHlo.after (hostOps1_2 (F := Ideal)) (StableHlo.after (hostOps1_1 (F := Ideal)) W)))) (Proc.devRef .tc main_v51) = pad S100352x128 ![0, 0] ![352, 0] ![0, 0] (W (Proc.devRef .tc main_v31)) z pads_S100000x128_S100352x128_03520_000 h_S_ := by
  refine ⟨?z, ?h⟩
  case h =>
    after_results
    rfl

/-- … and the neighbour means padded likewise. -/
theorem padA1 : ∃ z, (StableHlo.after (hostOps1_4 (F := Ideal)) (StableHlo.after (hostOps1_3 (F := Ideal)) (StableHlo.after (hostOps1_2 (F := Ideal)) (StableHlo.after (hostOps1_1 (F := Ideal)) W)))) (Proc.devRef .tc main_v52) = pad S100352x128 ![0, 0] ![352, 0] ![0, 0] (W (Proc.devRef .tc main_v50)) z pads_S100000x128_S100352x128_03520_000 h_S_ := by
  refine ⟨?z, ?h⟩
  case h =>
    after_results
    rfl

theorem row1_main_v53 : (StableHlo.after (hostOps1_4 (F := Ideal)) (StableHlo.after (hostOps1_3 (F := Ideal)) (StableHlo.after (hostOps1_2 (F := Ideal)) (StableHlo.after (hostOps1_1 (F := Ideal)) W)))) (Proc.devRef .tc main_v53) = shapeCast S1x128 (W (Proc.devRef .tc main_arg7)) shapeCasts_S128_S1x128 := by
  after_results
  rfl

theorem row1_main_v54 : (StableHlo.after (hostOps1_4 (F := Ideal)) (StableHlo.after (hostOps1_3 (F := Ideal)) (StableHlo.after (hostOps1_2 (F := Ideal)) (StableHlo.after (hostOps1_1 (F := Ideal)) W)))) (Proc.devRef .tc main_v54) = shapeCast S1x128 (W (Proc.devRef .tc main_arg15)) shapeCasts_S128_S1x128 := by
  after_results
  rfl

theorem row1_main_v55 : (StableHlo.after (hostOps1_4 (F := Ideal)) (StableHlo.after (hostOps1_3 (F := Ideal)) (StableHlo.after (hostOps1_2 (F := Ideal)) (StableHlo.after (hostOps1_1 (F := Ideal)) W)))) (Proc.devRef .tc main_v55) = shapeCast S1x128 (W (Proc.devRef .tc main_arg16)) shapeCasts_S128_S1x128 := by
  after_results
  rfl

theorem row1_main_v56 : (StableHlo.after (hostOps1_4 (F := Ideal)) (StableHlo.after (hostOps1_3 (F := Ideal)) (StableHlo.after (hostOps1_2 (F := Ideal)) (StableHlo.after (hostOps1_1 (F := Ideal)) W)))) (Proc.devRef .tc main_v56) = shapeCast S1x128 (W (Proc.devRef .tc main_arg17)) shapeCasts_S128_S1x128 := by
  after_results
  rfl

theorem row1_main_v57 : (StableHlo.after (hostOps1_4 (F := Ideal)) (StableHlo.after (hostOps1_3 (F := Ideal)) (StableHlo.after (hostOps1_2 (F := Ideal)) (StableHlo.after (hostOps1_1 (F := Ideal)) W)))) (Proc.devRef .tc main_v57) = shapeCast S1x128 (W (Proc.devRef .tc main_arg18)) shapeCasts_S128_S1x128 := by
  after_results
  rfl

/-! ## Stretch 2 -/

theorem feat2 : StableHlo.after (hostOps2 (F := Ideal)) W (Proc.devRef .tc main_v59) = extractStridedSlice S100000x128 ![0, 0] (W (Proc.devRef .tc main_v58)) slices_S100352x128_S100000x128_0_0 := by
  after_results

theorem agg2 : StableHlo.after (hostOps2 (F := Ideal)) W (Proc.devRef .tc main_v78)
    = aggSD (extractStridedSlice S100000x128 ![0, 0] (W (Proc.devRef .tc main_v58)) slices_S100352x128_S100000x128_0_0) (W (Proc.devRef .tc main_v1)) (W (Proc.devRef .tc main_v3)) := by
  after_results
  rfl

/-- Stretch 2, after the aggregation: the features padded to 100352 rows (the padding value is immaterial). -/
theorem padX2 : ∃ z, (StableHlo.after (hostOps2_4 (F := Ideal)) (StableHlo.after (hostOps2_3 (F := Ideal)) (StableHlo.after (hostOps2_2 (F := Ideal)) (StableHlo.after (hostOps2_1 (F := Ideal)) W)))) (Proc.devRef .tc main_v79) = pad S100352x128 ![0, 0] ![352, 0] ![0, 0] (W (Proc.devRef .tc main_v59)) z pads_S100000x128_S100352x128_03520_000 h_S_ := by
  refine ⟨?z, ?h⟩
  case h =>
    after_results
    rfl

/-- … and the neighbour means padded likewise. -/
theorem padA2 : ∃ z, (StableHlo.after (hostOps2_4 (F := Ideal)) (StableHlo.after (hostOps2_3 (F := Ideal)) (StableHlo.after (hostOps2_2 (F := Ideal)) (StableHlo.after (hostOps2_1 (F := Ideal)) W)))) (Proc.devRef .tc main_v80) = pad S100352x128 ![0, 0] ![352, 0] ![0, 0] (W (Proc.devRef .tc main_v78)) z pads_S100000x128_S100352x128_03520_000 h_S_ := by
  refine ⟨?z, ?h⟩
  case h =>
    after_results
    rfl

theorem row2_main_v81 : (StableHlo.after (hostOps2_4 (F := Ideal)) (StableHlo.after (hostOps2_3 (F := Ideal)) (StableHlo.after (hostOps2_2 (F := Ideal)) (StableHlo.after (hostOps2_1 (F := Ideal)) W)))) (Proc.devRef .tc main_v81) = shapeCast S1x40 (W (Proc.devRef .tc main_arg10)) shapeCasts_S40_S1x40 := by
  after_results
  rfl

/-! ## The last operation -/

theorem out3 : StableHlo.after (hostOps3 (F := Ideal)) W (Proc.devRef .tc main_v83)
    = extractStridedSlice S100000x40 ![0, 0] (W (Proc.devRef .tc main_v82)) slices_S100352x40_S100000x40_0_0 := by
  after_results

end Cert.Sage.KHost

end
-- ==== Proof.AggEq.lean ====
/-
  The neighbour-mean operator is ONE chain of host operations in both programs.

  The reference forms the neighbour means of a feature array by the same operations, with the same literals and the
  same gather and scatter dimension numbers, as the kernel program's host side: slice the two rows of the edge array,
  wrap negative sources once, gather the source rows, scatter-add them at the destinations, scatter-add ones for the
  in-degree, clamp it below at one, divide.  Both spellings unfold to the same term, so the operator is never opened:
  the proof only ever applies it to equal features.
-/
import proofs.«136776_j22454089023509_1_alg».proof.Proof.RefLayers
import proofs.«136776_j22454089023509_1_alg».proof.Proof.KHost

set_option maxRecDepth 16384

noncomputable section

namespace Cert.Sage

open Idealize.ShloMosaic

/-- The reference's neighbour means are the kernel program's, on every feature array and every edge array. -/
theorem agg_eq (h : FVec Ideal Cert.KernelIdeal.S100000x128 .f32) (e : (⟨Cert.KernelIdeal.S2x1600000, .i32⟩ : BufTy).Contents (Elt Ideal)) :
    Ref.agg h e = KHost.aggSD h (KHost.srcOf e) (KHost.dstOf e) := by
  unfold Ref.agg KHost.aggSD KHost.srcOf KHost.dstOf
  rfl

end Cert.Sage

end
-- ==== Proof.KRun.lean ====
/-
  The kernel program's run with every unscoped buffer named.

  The program is nineteen segments: stretches of host operations around three kernel regions.  Folding the segments'
  effects from the launch memory gives the contents of every buffer at the return (the generated fold `W19`); the
  run below says that every weakly fair execution terminates, faults nowhere, and ends with each unscoped buffer —
  the result and the arguments among them — at exactly those contents.  The frame claim keeps only the arguments; the
  value claim also needs the result buffer, so the run is stated once for all buffers.
-/
import proofs.«136776_j22454089023509_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and in its final memory every
    unscoped buffer of every core holds the fold of the segments' effects from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The result buffer after the run. -/
theorem result_mem (r : PUnit × MemSt nD τ sig (Elt F))
    (h : ∀ c : Dev nD, ∀ b ∈ Pipeline.ucRefs τ sig, r.2.mem (((c : Thread nD τ)).1, b) = W19 m ρ c b) (c : Dev nD) :
    r.2.mem ((c.tc : Thread nD τ).loc main_v83) = W19 m ρ c (Proc.devRef .tc main_v83) :=
  h c _ (mem_uc main_v83 (by decide))

end Cert.Sage.KRun

end
-- ==== Proof.KKeep.lean ====
/-
  Which buffers each stretch of host operations leaves untouched.

  Every host operation writes exactly one buffer, its result.  For each stretch the list of those result buffers is
  written out; a buffer that is not in the list holds after the stretch what it held before.  This is what carries the
  arguments and the edge lists computed once, in the first stretch, to the later stretches that read them.
-/
import proofs.«136776_j22454089023509_1_alg».proof.Proof.Gen.KernelIdeal.Frame
import Idealize.ShloMosaic.PureOps.Ideal
import Idealize.ShloMosaic.Lib.StableHlo.Run

set_option maxRecDepth 16384

noncomputable section

namespace Cert.Sage.KKeep

open Cert.KernelIdeal Cert.KernelIdeal.Gen
open Idealize.ShloMosaic Idealize.ShloMosaic.TcCoe Idealize.SL.Sem Idealize.ShloMosaic.StableHlo

variable {F : FTy → Type} [FloatOps F]

/-- The buffers `hostOps0` writes. -/
abbrev hostOps0_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_c_4]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps0 (W : Valuation τ sig (Elt F)) (r : Ref sig .tc) (h : r ∉ hostOps0_W) :
    StableHlo.after (hostOps0 (F := F)) W (Proc.devRef .tc r) = W (Proc.devRef .tc r) :=
  StableHlo.after_of_writes_sub hostOps0 _ hostOps0_writes h

/-- The buffers `hostOps0_1` writes. -/
abbrev hostOps0_1_W : List (Ref sig .tc) := [main_call0_v0, main_v23]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps0_1 (W : Valuation τ sig (Elt F)) (r : Ref sig .tc) (h : r ∉ hostOps0_1_W) :
    StableHlo.after (hostOps0_1 (F := F)) W (Proc.devRef .tc r) = W (Proc.devRef .tc r) :=
  StableHlo.after_of_writes_sub hostOps0_1 _ hostOps0_1_writes h

/-- The buffers `hostOps0_2` writes. -/
abbrev hostOps0_2_W : List (Ref sig .tc) := [main_c_5]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
theorem keep_hostOps0_2 (W : Valuation τ sig (Elt F)) (r : Ref sig .tc) (h : r ∉ hostOps0_2_W) :
    StableHlo.after (hostOps0_2 (F := F)) W (Proc.devRef .tc r) = W (Proc.devRef .tc r) :=
  StableHlo.after_of_writes_sub hostOps0_2 _ hostOps0_2_writes h

/-- The buffers `hostOps0_3` writes. -/
abbrev hostOps0_3_W : List (Ref sig .tc) := [main_call1_v0, main_v24]
theorem hostOps0_3_writes : (hostOps0_3 : List (HloOp τ sig (Elt F))).Forall fun op => op.writes ⊆ (hostOps0_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps0_3 (W : Valuation τ sig (Elt F)) (r : Ref sig .tc) (h : r ∉ hostOps0_3_W) :
    StableHlo.after (hostOps0_3 (F := F)) W (Proc.devRef .tc r) = W (Proc.devRef .tc r) :=
  StableHlo.after_of_writes_sub hostOps0_3 _ hostOps0_3_writes h

/-- The buffers `hostOps0_4` writes. -/
abbrev hostOps0_4_W : List (Ref sig .tc) := [main_v25, main_v26, main_v27, main_v28, main_v29]
theorem hostOps0_4_writes : (hostOps0_4 : List (HloOp τ sig (Elt F))).Forall fun op => op.writes ⊆ (hostOps0_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps0_4 (W : Valuation τ sig (Elt F)) (r : Ref sig .tc) (h : r ∉ hostOps0_4_W) :
    StableHlo.after (hostOps0_4 (F := F)) W (Proc.devRef .tc r) = W (Proc.devRef .tc r) :=
  StableHlo.after_of_writes_sub hostOps0_4 _ hostOps0_4_writes h

/-- The buffers `hostOps1` writes. -/
abbrev hostOps1_W : List (Ref sig .tc) := [main_v31, main_c_6, main_v32, main_v33, main_c_7, main_v34, main_v35, main_v36, main_v37, main_v38, main_cst_8, main_v39, main_v40, main_v41, main_cst_9, main_v42, main_cst_10, main_v43, main_v44, main_v45, main_cst_11, main_v46, main_v47, main_v48, main_v49, main_v50, main_c_12]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps1 (W : Valuation τ sig (Elt F)) (r : Ref sig .tc) (h : r ∉ hostOps1_W) :
    StableHlo.after (hostOps1 (F := F)) W (Proc.devRef .tc r) = W (Proc.devRef .tc r) :=
  StableHlo.after_of_writes_sub hostOps1 _ hostOps1_writes h

/-- The buffers `hostOps1_1` writes. -/
abbrev hostOps1_1_W : List (Ref sig .tc) := [main_call2_v0, main_v51]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps1_1 (W : Valuation τ sig (Elt F)) (r : Ref sig .tc) (h : r ∉ hostOps1_1_W) :
    StableHlo.after (hostOps1_1 (F := F)) W (Proc.devRef .tc r) = W (Proc.devRef .tc r) :=
  StableHlo.after_of_writes_sub hostOps1_1 _ hostOps1_1_writes h

/-- The buffers `hostOps1_2` writes. -/
abbrev hostOps1_2_W : List (Ref sig .tc) := [main_c_13]
theorem hostOps1_2_writes : (hostOps1_2 : List (HloOp τ sig (Elt F))).Forall fun op => op.writes ⊆ (hostOps1_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
theorem keep_hostOps1_2 (W : Valuation τ sig (Elt F)) (r : Ref sig .tc) (h : r ∉ hostOps1_2_W) :
    StableHlo.after (hostOps1_2 (F := F)) W (Proc.devRef .tc r) = W (Proc.devRef .tc r) :=
  StableHlo.after_of_writes_sub hostOps1_2 _ hostOps1_2_writes h

/-- The buffers `hostOps1_3` writes. -/
abbrev hostOps1_3_W : List (Ref sig .tc) := [main_call3_v0, main_v52]
theorem hostOps1_3_writes : (hostOps1_3 : List (HloOp τ sig (Elt F))).Forall fun op => op.writes ⊆ (hostOps1_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps1_3 (W : Valuation τ sig (Elt F)) (r : Ref sig .tc) (h : r ∉ hostOps1_3_W) :
    StableHlo.after (hostOps1_3 (F := F)) W (Proc.devRef .tc r) = W (Proc.devRef .tc r) :=
  StableHlo.after_of_writes_sub hostOps1_3 _ hostOps1_3_writes h

/-- The buffers `hostOps1_4` writes. -/
abbrev hostOps1_4_W : List (Ref sig .tc) := [main_v53, main_v54, main_v55, main_v56, main_v57]
theorem hostOps1_4_writes : (hostOps1_4 : List (HloOp τ sig (Elt F))).Forall fun op => op.writes ⊆ (hostOps1_4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps1_4 (W : Valuation τ sig (Elt F)) (r : Ref sig .tc) (h : r ∉ hostOps1_4_W) :
    StableHlo.after (hostOps1_4 (F := F)) W (Proc.devRef .tc r) = W (Proc.devRef .tc r) :=
  StableHlo.after_of_writes_sub hostOps1_4 _ hostOps1_4_writes h

/-- The buffers `hostOps2` writes. -/
abbrev hostOps2_W : List (Ref sig .tc) := [main_v59, main_c_14, main_v60, main_v61, main_c_15, main_v62, main_v63, main_v64, main_v65, main_v66, main_cst_16, main_v67, main_v68, main_v69, main_cst_17, main_v70, main_cst_18, main_v71, main_v72, main_v73, main_cst_19, main_v74, main_v75, main_v76, main_v77, main_v78, main_c_20]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps2 (W : Valuation τ sig (Elt F)) (r : Ref sig .tc) (h : r ∉ hostOps2_W) :
    StableHlo.after (hostOps2 (F := F)) W (Proc.devRef .tc r) = W (Proc.devRef .tc r) :=
  StableHlo.after_of_writes_sub hostOps2 _ hostOps2_writes h

/-- The buffers `hostOps2_1` writes. -/
abbrev hostOps2_1_W : List (Ref sig .tc) := [main_call4_v0, main_v79]
theorem hostOps2_1_writes : (hostOps2_1 : List (HloOp τ sig (Elt F))).Forall fun op => op.writes ⊆ (hostOps2_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps2_1 (W : Valuation τ sig (Elt F)) (r : Ref sig .tc) (h : r ∉ hostOps2_1_W) :
    StableHlo.after (hostOps2_1 (F := F)) W (Proc.devRef .tc r) = W (Proc.devRef .tc r) :=
  StableHlo.after_of_writes_sub hostOps2_1 _ hostOps2_1_writes h

/-- The buffers `hostOps2_2` writes. -/
abbrev hostOps2_2_W : List (Ref sig .tc) := [main_c_21]
theorem hostOps2_2_writes : (hostOps2_2 : List (HloOp τ sig (Elt F))).Forall fun op => op.writes ⊆ (hostOps2_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
theorem keep_hostOps2_2 (W : Valuation τ sig (Elt F)) (r : Ref sig .tc) (h : r ∉ hostOps2_2_W) :
    StableHlo.after (hostOps2_2 (F := F)) W (Proc.devRef .tc r) = W (Proc.devRef .tc r) :=
  StableHlo.after_of_writes_sub hostOps2_2 _ hostOps2_2_writes h

/-- The buffers `hostOps2_3` writes. -/
abbrev hostOps2_3_W : List (Ref sig .tc) := [main_call5_v0, main_v80]
theorem hostOps2_3_writes : (hostOps2_3 : List (HloOp τ sig (Elt F))).Forall fun op => op.writes ⊆ (hostOps2_3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)⟩
theorem keep_hostOps2_3 (W : Valuation τ sig (Elt F)) (r : Ref sig .tc) (h : r ∉ hostOps2_3_W) :
    StableHlo.after (hostOps2_3 (F := F)) W (Proc.devRef .tc r) = W (Proc.devRef .tc r) :=
  StableHlo.after_of_writes_sub hostOps2_3 _ hostOps2_3_writes h

/-- The buffers `hostOps2_4` writes. -/
abbrev hostOps2_4_W : List (Ref sig .tc) := [main_v81]
theorem hostOps2_4_writes : (hostOps2_4 : List (HloOp τ sig (Elt F))).Forall fun op => op.writes ⊆ (hostOps2_4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
theorem keep_hostOps2_4 (W : Valuation τ sig (Elt F)) (r : Ref sig .tc) (h : r ∉ hostOps2_4_W) :
    StableHlo.after (hostOps2_4 (F := F)) W (Proc.devRef .tc r) = W (Proc.devRef .tc r) :=
  StableHlo.after_of_writes_sub hostOps2_4 _ hostOps2_4_writes h

/-- The buffers `hostOps3` writes. -/
abbrev hostOps3_W : List (Ref sig .tc) := [main_v83]
theorem hostOps3_writes : (hostOps3 : List (HloOp τ sig (Elt F))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
theorem keep_hostOps3 (W : Valuation τ sig (Elt F)) (r : Ref sig .tc) (h : r ∉ hostOps3_W) :
    StableHlo.after (hostOps3 (F := F)) W (Proc.devRef .tc r) = W (Proc.devRef .tc r) :=
  StableHlo.after_of_writes_sub hostOps3 _ hostOps3_writes h

/-- The four short lists after stretch 0's aggregation, together. -/
theorem keep_tail0 (W : Valuation τ sig (Elt F)) (r : Ref sig .tc) (h1 : r ∉ hostOps0_1_W) (h2 : r ∉ hostOps0_2_W) (h3 : r ∉ hostOps0_3_W) (h4 : r ∉ hostOps0_4_W) :
    StableHlo.after (hostOps0_4 (F := F)) (StableHlo.after (hostOps0_3 (F := F)) (StableHlo.after (hostOps0_2 (F := F)) (StableHlo.after (hostOps0_1 (F := F)) W))) (Proc.devRef .tc r) = W (Proc.devRef .tc r) :=
  (keep_hostOps0_4 _ r h4).trans ((keep_hostOps0_3 _ r h3).trans ((keep_hostOps0_2 _ r h2).trans (keep_hostOps0_1 _ r h1)))

/-- The whole of stretch 0. -/
theorem keep_all0 (W : Valuation τ sig (Elt F)) (r : Ref sig .tc) (h0 : r ∉ hostOps0_W) (h1 : r ∉ hostOps0_1_W) (h2 : r ∉ hostOps0_2_W) (h3 : r ∉ hostOps0_3_W) (h4 : r ∉ hostOps0_4_W) :
    StableHlo.after (hostOps0_4 (F := F)) (StableHlo.after (hostOps0_3 (F := F)) (StableHlo.after (hostOps0_2 (F := F)) (StableHlo.after (hostOps0_1 (F := F)) (StableHlo.after (hostOps0 (F := F)) W)))) (Proc.devRef .tc r) = W (Proc.devRef .tc r) :=
  (keep_tail0 _ r h1 h2 h3 h4).trans (keep_hostOps0 _ r h0)

/-- The four short lists after stretch 1's aggregation, together. -/
theorem keep_tail1 (W : Valuation τ sig (Elt F)) (r : Ref sig .tc) (h1 : r ∉ hostOps1_1_W) (h2 : r ∉ hostOps1_2_W) (h3 : r ∉ hostOps1_3_W) (h4 : r ∉ hostOps1_4_W) :
    StableHlo.after (hostOps1_4 (F := F)) (StableHlo.after (hostOps1_3 (F := F)) (StableHlo.after (hostOps1_2 (F := F)) (StableHlo.after (hostOps1_1 (F := F)) W))) (Proc.devRef .tc r) = W (Proc.devRef .tc r) :=
  (keep_hostOps1_4 _ r h4).trans ((keep_hostOps1_3 _ r h3).trans ((keep_hostOps1_2 _ r h2).trans (keep_hostOps1_1 _ r h1)))

/-- The whole of stretch 1. -/
theorem keep_all1 (W : Valuation τ sig (Elt F)) (r : Ref sig .tc) (h0 : r ∉ hostOps1_W) (h1 : r ∉ hostOps1_1_W) (h2 : r ∉ hostOps1_2_W) (h3 : r ∉ hostOps1_3_W) (h4 : r ∉ hostOps1_4_W) :
    StableHlo.after (hostOps1_4 (F := F)) (StableHlo.after (hostOps1_3 (F := F)) (StableHlo.after (hostOps1_2 (F := F)) (StableHlo.after (hostOps1_1 (F := F)) (StableHlo.after (hostOps1 (F := F)) W)))) (Proc.devRef .tc r) = W (Proc.devRef .tc r) :=
  (keep_tail1 _ r h1 h2 h3 h4).trans (keep_hostOps1 _ r h0)

/-- The four short lists after stretch 2's aggregation, together. -/
theorem keep_tail2 (W : Valuation τ sig (Elt F)) (r : Ref sig .tc) (h1 : r ∉ hostOps2_1_W) (h2 : r ∉ hostOps2_2_W) (h3 : r ∉ hostOps2_3_W) (h4 : r ∉ hostOps2_4_W) :
    StableHlo.after (hostOps2_4 (F := F)) (StableHlo.after (hostOps2_3 (F := F)) (StableHlo.after (hostOps2_2 (F := F)) (StableHlo.after (hostOps2_1 (F := F)) W))) (Proc.devRef .tc r) = W (Proc.devRef .tc r) :=
  (keep_hostOps2_4 _ r h4).trans ((keep_hostOps2_3 _ r h3).trans ((keep_hostOps2_2 _ r h2).trans (keep_hostOps2_1 _ r h1)))

/-- The whole of stretch 2. -/
theorem keep_all2 (W : Valuation τ sig (Elt F)) (r : Ref sig .tc) (h0 : r ∉ hostOps2_W) (h1 : r ∉ hostOps2_1_W) (h2 : r ∉ hostOps2_2_W) (h3 : r ∉ hostOps2_3_W) (h4 : r ∉ hostOps2_4_W) :
    StableHlo.after (hostOps2_4 (F := F)) (StableHlo.after (hostOps2_3 (F := F)) (StableHlo.after (hostOps2_2 (F := F)) (StableHlo.after (hostOps2_1 (F := F)) (StableHlo.after (hostOps2 (F := F)) W)))) (Proc.devRef .tc r) = W (Proc.devRef .tc r) :=
  (keep_tail2 _ r h1 h2 h3 h4).trans (keep_hostOps2 _ r h0)

end Cert.Sage.KKeep

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KBody.lean ====
/-
  The kernel bodies read at an entry.

  Each of the three bodies works on one block of 2048 rows.  The two hidden layers' body forms, from the block of node
  features x and the block of neighbour means a,

      s = x·Ws + a·Wn + b,      out = max(((s − μ)·rsqrt(σ² + ε))·γ + β, 0),

  the two matrix products accumulated into zeros (over the extended reals the narrowing of the operands to 16 bits
  is the identity) and the five rows b, σ², μ, γ, β laid over the 2048 rows.  The output layer's body forms the same s
  with 40 columns and then, row by row, the log-softmax: the row's maximum folded from −∞ and joined once more with −∞,
  laid back over the columns and subtracted, then the logarithm of the row's sum of exponentials subtracted.

  Read at the entry (p, q) of the block, each body is therefore the specification's entry function of ROW p of x and of
  a: the three theorems at the end.
-/
import proofs.«136776_j22454089023509_1_alg».proof.Proof.Gen.KernelIdeal.Frame
import proofs.«136776_j22454089023509_1_alg».proof.Proof.Spec
import proofs.«136776_j22454089023509_1_alg».proof.Proof.LibMatmulNN
import proofs.«136776_j22454089023509_1_alg».proof.Proof.LibKeepdimsColumn
import proofs.«136776_j22454089023509_1_alg».proof.Proof.LibSlabLayout
import Idealize.ShloMosaic.Lib.ValueLayout

noncomputable section

namespace Cert.Sage.KBody

open Idealize.ShloMosaic Idealize.ShloMosaic.ValueIdx Cert.KernelIdeal Cert.KernelIdeal.Gen

/-- The zero offsets of a whole-block access, as the constant function. -/
theorem zeros2 : (![0, 0] : Fin 2 → Nat) = fun _ => 0 := funext fun a => by fin_cases a <;> rfl

/-! ## The affine part, for any number of output columns -/

/-- x·Ws + a·Wn + b at the entry (p, q): the two inner products of row p with column q, plus b's entry q. -/
theorem affine_apply {c : ℕ} (D : DotDims ⟨2, ![2048, 128]⟩ ⟨2, ![128, c]⟩ ⟨2, ![2048, c]⟩)
    (hD : D = DotDims.plain 2048 128 c) (ht : FTy.bits .bf16 < FTy.bits .f32)
    (hb : (⟨2, ![1, c]⟩ : Shape).Broadcasts ⟨2, ![2048, c]⟩)
    (x a : FVec Ideal ⟨2, ![2048, 128]⟩ .f32) (ws wn : FVec Ideal ⟨2, ![128, c]⟩ .f32) (b : FVec Ideal ⟨2, ![1, c]⟩ .f32)
    (p : Fin 2048) (q : Fin c) :
    addf (addf (matmul D none (truncf .bf16 x ht) (truncf .bf16 ws ht) (constant (F := Ideal) ⟨2, ![2048, c]⟩ .f32 0x00000000#32))
               (matmul D none (truncf .bf16 a ht) (truncf .bf16 wn ht) (constant (F := Ideal) ⟨2, ![2048, c]⟩ .f32 0x00000000#32)))
         (broadcastTo ⟨2, ![2048, c]⟩ b hb) (ix2 p q)
      = pre (rowOf x p) (rowOf a p) ws wn (ofRow b) q := by
  have e1 := Cert.MatmulNN.matmul_zero_apply D hD none (truncf .bf16 x ht) (truncf .bf16 ws ht) p q
  have e2 := Cert.MatmulNN.matmul_zero_apply D hD none (truncf .bf16 a ht) (truncf .bf16 wn ht) p q
  have e3 := broadcastTo_1b_ab_apply b hb p q
  show (FloatOps.matmul D none (truncf .bf16 x ht) (truncf .bf16 ws ht) (constant (F := Ideal) ⟨2, ![2048, c]⟩ .f32 0x00000000#32) (ix2 p q)
        + FloatOps.matmul D none (truncf .bf16 a ht) (truncf .bf16 wn ht) (constant (F := Ideal) ⟨2, ![2048, c]⟩ .f32 0x00000000#32) (ix2 p q))
        + broadcastTo ⟨2, ![2048, c]⟩ b hb (ix2 p q) = _
  rw [e1, e2, e3]
  rfl

/-! ## The hidden layers' normalisation and clamp -/

/-- The normalisation with the four statistic rows laid over the block, then the clamp at zero, at the entry (p, q). -/
theorem norm_apply (s : FVec Ideal ⟨2, ![2048, 128]⟩ .f32) (g be mu var : FVec Ideal ⟨2, ![1, 128]⟩ .f32)
    (hb : (⟨2, ![1, 128]⟩ : Shape).Broadcasts ⟨2, ![2048, 128]⟩) (p : Fin 2048) (q : Fin 128) :
    maximumf
        (addf
          (mulf
            (mulf (subf s (broadcastTo ⟨2, ![2048, 128]⟩ mu hb))
              (broadcastTo ⟨2, ![2048, 128]⟩
                (rsqrt (addf var (broadcast ⟨2, ![1, 128]⟩ (FloatOps.ofBits .f32 0x3727C5AC#32 : Ideal .f32)))) hb))
            (broadcastTo ⟨2, ![2048, 128]⟩ g hb))
          (broadcastTo ⟨2, ![2048, 128]⟩ be hb))
        (broadcast ⟨2, ![2048, 128]⟩ (FloatOps.ofBits .f32 0x00000000#32 : Ideal .f32)) (ix2 p q)
      = bnCell (s (ix2 p q)) (ofRow g q) (ofRow be q) (ofRow mu q) (ofRow var q) := by
  have e1 := broadcastTo_1b_ab_apply mu hb p q
  have e2 := broadcastTo_1b_ab_apply
    (rsqrt (addf var (broadcast ⟨2, ![1, 128]⟩ (FloatOps.ofBits .f32 0x3727C5AC#32 : Ideal .f32)))) hb p q
  have e3 := broadcastTo_1b_ab_apply g hb p q
  have e4 := broadcastTo_1b_ab_apply be hb p q
  show max ((((s (ix2 p q) - broadcastTo ⟨2, ![2048, 128]⟩ mu hb (ix2 p q))
        * broadcastTo ⟨2, ![2048, 128]⟩
            (rsqrt (addf var (broadcast ⟨2, ![1, 128]⟩ (FloatOps.ofBits .f32 0x3727C5AC#32 : Ideal .f32)))) hb (ix2 p q))
        * broadcastTo ⟨2, ![2048, 128]⟩ g hb (ix2 p q))
        + broadcastTo ⟨2, ![2048, 128]⟩ be hb (ix2 p q)) (Ideal.ofBits .f32 0x00000000#32) = _
  rw [e1, e2, e3, e4]
  rfl

/-! ## The output layer's row-wise log-softmax -/

/-- A length-a vector kept as a column and laid back over b columns reads, at (p, q), the vector at p. -/
theorem column_apply {a b : ℕ} (v : FVec Ideal ⟨1, ![a]⟩ .f32)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) :=
  (Cert.KeepdimsColumn.broadcastTo_a1_ab_apply (shapeCast ⟨2, ![a, 1]⟩ v hc) hb p q).trans
    (Cert.KeepdimsColumn.shapeCast_a_a1_apply v hc p (0 : Fin 1))

/-- The row maximum as the body takes it — folded from −∞ along the row, then joined with −∞ — at row p. -/
theorem top_apply {a b : ℕ} (s : FVec Ideal ⟨2, ![a, b]⟩ .f32)
    (hr : (⟨2, ![a, b]⟩ : Shape).Reduces [(1 : Fin 2)] ⟨1, ![a]⟩) (hφ : FKind.Formats .f32)
    (hmax : (0xFF800000#32 : BitVec (FTy.bits .f32)) = FKind.maximumf.neutral .f32 hφ) (p : Fin a) :
    maximumf (broadcast ⟨1, ![a]⟩ (FloatOps.ofBits .f32 0xFF800000#32 : Ideal .f32))
        (multiReduction .maximumf [(1 : Fin 2)] ⟨1, ![a]⟩ s 0xFF800000#32 hr hφ hmax) (ix1 p)
      = rowTop (fun k : Fin b => s (ix2 p k)) :=
  congrArg (max negInfW) (Cert.SlabLayout.rowMax_apply s 0xFF800000#32 hr hφ hmax p)

/-- The log-softmax of every row of an [a, b] array, as the body spells it, at the entry (p, q). -/
theorem logSoftmax_apply {a b : ℕ} (s : FVec Ideal ⟨2, ![a, b]⟩ .f32)
    (hr : (⟨2, ![a, b]⟩ : Shape).Reduces [(1 : Fin 2)] ⟨1, ![a]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf
        (subf s (broadcastTo ⟨2, ![a, b]⟩ (shapeCast ⟨2, ![a, 1]⟩
          (maximumf (broadcast ⟨1, ![a]⟩ (FloatOps.ofBits .f32 0xFF800000#32 : Ideal .f32))
            (multiReduction .maximumf [(1 : Fin 2)] ⟨1, ![a]⟩ s 0xFF800000#32 hr hφ hmax)) hc) hb))
        (broadcastTo ⟨2, ![a, b]⟩
          (log (shapeCast ⟨2, ![a, 1]⟩
            (multiReduction .add [(1 : Fin 2)] ⟨1, ![a]⟩
              (exp (subf s (broadcastTo ⟨2, ![a, b]⟩ (shapeCast ⟨2, ![a, 1]⟩
                (maximumf (broadcast ⟨1, ![a]⟩ (FloatOps.ofBits .f32 0xFF800000#32 : Ideal .f32))
                  (multiReduction .maximumf [(1 : Fin 2)] ⟨1, ![a]⟩ s 0xFF800000#32 hr hφ hmax)) hc) hb)))
              0x00000000#32 hr hφ hadd) hc)) hb) (ix2 p q)
      = lsRow (fun k : Fin b => s (ix2 p k)) q := by
  -- the row's maximum, laid back over the columns
  have etop : ∀ k : Fin b,
      broadcastTo ⟨2, ![a, b]⟩ (shapeCast ⟨2, ![a, 1]⟩
          (maximumf (broadcast ⟨1, ![a]⟩ (FloatOps.ofBits .f32 0xFF800000#32 : Ideal .f32))
            (multiReduction .maximumf [(1 : Fin 2)] ⟨1, ![a]⟩ s 0xFF800000#32 hr hφ hmax)) hc) hb (ix2 p k)
        = rowTop (fun k : Fin b => s (ix2 p k)) := fun k =>
    (column_apply _ hc hb p k).trans (top_apply s hr hφ hmax p)
  -- the shifted array d = s − top at an entry of row p
  generalize hd : subf s (broadcastTo ⟨2, ![a, b]⟩ (shapeCast ⟨2, ![a, 1]⟩
          (maximumf (broadcast ⟨1, ![a]⟩ (FloatOps.ofBits .f32 0xFF800000#32 : Ideal .f32))
            (multiReduction .maximumf [(1 : Fin 2)] ⟨1, ![a]⟩ s 0xFF800000#32 hr hφ hmax)) hc) hb) = d
  have ed : ∀ k : Fin b, d (ix2 p k) = s (ix2 p k) - rowTop (fun k : Fin b => s (ix2 p k)) := fun k => by
    rw [← hd]
    show s (ix2 p k) - _ = _
    rw [etop k]
  -- the logarithm of the row's sum of exponentials, laid back over the columns
  have elog : broadcastTo ⟨2, ![a, b]⟩
        (log (shapeCast ⟨2, ![a, 1]⟩ (multiReduction .add [(1 : Fin 2)] ⟨1, ![a]⟩ (exp d) 0x00000000#32 hr hφ hadd) hc)) hb (ix2 p q)
      = Ideal.log (∑ k : Fin b, Ideal.exp (d (ix2 p k))) := by
    refine (Cert.KeepdimsColumn.broadcastTo_a1_ab_apply _ hb p q).trans ?_
    show Ideal.log (shapeCast ⟨2, ![a, 1]⟩ (multiReduction .add [(1 : Fin 2)] ⟨1, ![a]⟩ (exp d) 0x00000000#32 hr hφ hadd) hc (ix2 p (0 : Fin 1))) = _
    refine congrArg Ideal.log ?_
    refine (Cert.KeepdimsColumn.shapeCast_a_a1_apply _ hc p (0 : Fin 1)).trans ?_
    exact Cert.SlabLayout.rowSum_apply (exp d) 0x00000000#32 hr hφ hadd p
  show d (ix2 p q) - _ = _
  rw [elog, ed q]
  unfold lsRow
  refine congrArg (fun t => (s (ix2 p q) - rowTop (fun k : Fin b => s (ix2 p k))) - Ideal.log t) ?_
  exact Finset.sum_congr rfl fun k _ => congrArg Ideal.exp (ed k)

/-! ## The three bodies -/

/-- The first hidden layer's body, at the entry (p, q) of its output block. -/
theorem out0_9_apply (x0 x1 : Vec Ideal S2048x128 .f32) (x2 x3 : Vec Ideal S128x128 .f32)
    (x4 x5 x6 x7 x8 : Vec Ideal S1x128 .f32) (p : Fin 2048) (q : Fin 128) :
    out0_9 (F := Ideal) x0 x1 x2 x3 x4 x5 x6 x7 x8 (ix2 p q)
      = bnAt (rowOf x0 p) (rowOf x1 p) x2 x3 (ofRow x4) (ofRow x5) (ofRow x6) (ofRow x7) (ofRow x8) q := by
  unfold out0_9
  rw [View.canon_unit_zero zeros2]
  simp only [View.ld_unit_zero (S := S2048x128) zeros2, View.ld_unit_zero (S := S128x128) zeros2,
    View.ld_unit_zero (S := S1x128) zeros2]
  unfold k0_pay1 k0_pay2 k0_pay3
  simp only [shapeCast_self]
  refine (norm_apply _ x5 x6 x7 x8 _ p q).trans ?_
  unfold bnAt
  exact congrArg (fun s => bnCell s (ofRow x5 q) (ofRow x6 q) (ofRow x7 q) (ofRow x8 q))
    (affine_apply dot_S2048x128_S128x128_S2048x128_1_0_0_1_n_n rfl _ _ x0 x1 x2 x3 x4 p q)

/-- The second hidden layer's body (the same body), at the entry (p, q) of its output block. -/
theorem out1_9_apply (x0 x1 : Vec Ideal S2048x128 .f32) (x2 x3 : Vec Ideal S128x128 .f32)
    (x4 x5 x6 x7 x8 : Vec Ideal S1x128 .f32) (p : Fin 2048) (q : Fin 128) :
    out1_9 (F := Ideal) x0 x1 x2 x3 x4 x5 x6 x7 x8 (ix2 p q)
      = bnAt (rowOf x0 p) (rowOf x1 p) x2 x3 (ofRow x4) (ofRow x5) (ofRow x6) (ofRow x7) (ofRow x8) q := by
  unfold out1_9
  rw [View.canon_unit_zero zeros2]
  simp only [View.ld_unit_zero (S := S2048x128) zeros2, View.ld_unit_zero (S := S128x128) zeros2,
    View.ld_unit_zero (S := S1x128) zeros2]
  unfold k1_pay1 k1_pay2 k1_pay3
  simp only [shapeCast_self]
  refine (norm_apply _ x5 x6 x7 x8 _ p q).trans ?_
  unfold bnAt
  exact congrArg (fun s => bnCell s (ofRow x5 q) (ofRow x6 q) (ofRow x7 q) (ofRow x8 q))
    (affine_apply dot_S2048x128_S128x128_S2048x128_1_0_0_1_n_n rfl _ _ x0 x1 x2 x3 x4 p q)

/-- The output layer's body, at the entry (p, q) of its output block. -/
theorem out2_5_apply (x0 x1 : Vec Ideal S2048x128 .f32) (x2 x3 : Vec Ideal S128x40 .f32) (x4 : Vec Ideal S1x40 .f32)
    (p : Fin 2048) (q : Fin 40) :
    out2_5 (F := Ideal) x0 x1 x2 x3 x4 (ix2 p q) = lsAt (rowOf x0 p) (rowOf x1 p) x2 x3 (ofRow x4) q := by
  unfold out2_5
  rw [View.canon_unit_zero zeros2]
  simp only [View.ld_unit_zero (S := S2048x128) zeros2, View.ld_unit_zero (S := S128x40) zeros2,
    View.ld_unit_zero (S := S1x40) zeros2]
  unfold k2_pay1
  simp only [shapeCast_self]
  refine (logSoftmax_apply _ _ _ _ _ _ _ p q).trans ?_
  unfold lsAt
  exact congrArg (fun v => lsRow v q) (funext fun k =>
    affine_apply dot_S2048x128_S128x40_S2048x40_1_0_0_1_n_n rfl _ _ x0 x1 x2 x3 x4 p k)

end Cert.Sage.KBody

end
-- ==== Proof.KReg0.lean ====
/-
  Region 0 of the kernel program read as one whole-array function.

  The region walks 49 grid points; point t stages rows 2048·t … 2048·t + 2047 of the two row operands (the weight and
  row-vector operands are staged whole), runs the body on the staged blocks, and writes the block of results back to
  rows 2048·t … of the output array.  Every entry of a block of results reads one row of the row operands, so the
  block written at point t is the block of ONE function of the operand arrays as the region finds them: the layer
  applied to the padded arrays.  The 49 blocks tile the 100352 rows, so the output array ends as that function.
-/
import proofs.«136776_j22454089023509_1_alg».proof.Proof.Gen.KernelIdeal.Frame
import proofs.«136776_j22454089023509_1_alg».proof.Proof.Spec
import proofs.«136776_j22454089023509_1_alg».proof.Proof.KBody
import Idealize.ShloMosaic.Lib.Pipeline.Value

set_option maxRecDepth 16384

noncomputable section

namespace Cert.Sage.KReg0

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the row windows sit at block row t, every other window at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Window 0's block at point t is rows 2048·t … of its array. -/
theorem blk0_apply (c : Dev nD) (t : Fin cfg0.N) (x : S2048x128.Idx) (k : S100352x128.Idx)
    (hk0 : (k 0).val = 2048 * t.val + (x 0).val) (hk1 : (k 1).val = (x 1).val) :
    (iblk0 V c 0 t : Vec Ideal S2048x128 .f32) x = (V c main_v23 : S100352x128.Idx → EReal) k := by
  have hi := idx_facts t
  unfold iblk0
  rw [View.read_apply]
  refine congrArg (V c main_v23 : S100352x128.Idx → EReal) (funext fun a => Fin.ext ?_)
  match a with
  | ⟨0, _⟩ => show win0_0.index t (0 : Fin 2) * 2048 + 1 * (x 0).val = (k 0).val; rw [hi.1, hk0]; omega
  | ⟨1, _⟩ => show win0_0.index t (1 : Fin 2) * 128 + 1 * (x 1).val = (k 1).val; rw [hi.2.1, hk1]; omega

/-- Window 1's block at point t is rows 2048·t … of its array. -/
theorem blk1_apply (c : Dev nD) (t : Fin cfg0.N) (x : S2048x128.Idx) (k : S100352x128.Idx)
    (hk0 : (k 0).val = 2048 * t.val + (x 0).val) (hk1 : (k 1).val = (x 1).val) :
    (iblk0 V c 1 t : Vec Ideal S2048x128 .f32) x = (V c main_v24 : S100352x128.Idx → EReal) k := by
  have hi := idx_facts t
  unfold iblk0
  rw [View.read_apply]
  refine congrArg (V c main_v24 : S100352x128.Idx → EReal) (funext fun a => Fin.ext ?_)
  match a with
  | ⟨0, _⟩ => show win0_1.index t (0 : Fin 2) * 2048 + 1 * (x 0).val = (k 0).val; rw [hi.2.2.1, hk0]; omega
  | ⟨1, _⟩ => show win0_1.index t (1 : Fin 2) * 128 + 1 * (x 1).val = (k 1).val; rw [hi.2.2.2.1, hk1]; omega

/-- Window 2 stages its whole array at every point. -/
theorem blk2_eq (c : Dev nD) (t : Fin cfg0.N) :
    (iblk0 V c 2 t : Vec Ideal S128x128 .f32) = (V c main_arg2 : S128x128.Idx → EReal) := by
  have hi := idx_facts t
  funext x
  unfold iblk0
  rw [View.read_apply]
  refine congrArg (V c main_arg2 : S128x128.Idx → EReal) (funext fun a => Fin.ext ?_)
  match a with
  | ⟨0, _⟩ => show win0_2.index t (0 : Fin 2) * 128 + 1 * (x 0).val = (x 0).val; rw [hi.2.2.2.2.1]; omega
  | ⟨1, _⟩ => show win0_2.index t (1 : Fin 2) * 128 + 1 * (x 1).val = (x 1).val; rw [hi.2.2.2.2.2.1]; omega

/-- Window 3 stages its whole array at every point. -/
theorem blk3_eq (c : Dev nD) (t : Fin cfg0.N) :
    (iblk0 V c 3 t : Vec Ideal S128x128 .f32) = (V c main_arg3 : S128x128.Idx → EReal) := by
  have hi := idx_facts t
  funext x
  unfold iblk0
  rw [View.read_apply]
  refine congrArg (V c main_arg3 : S128x128.Idx → EReal) (funext fun a => Fin.ext ?_)
  match a with
  | ⟨0, _⟩ => show win0_3.index t (0 : Fin 2) * 128 + 1 * (x 0).val = (x 0).val; rw [hi.2.2.2.2.2.2.1]; omega
  | ⟨1, _⟩ => show win0_3.index t (1 : Fin 2) * 128 + 1 * (x 1).val = (x 1).val; rw [hi.2.2.2.2.2.2.2.1]; omega

/-- Window 4 stages its whole array at every point. -/
theorem blk4_eq (c : Dev nD) (t : Fin cfg0.N) :
    (iblk0 V c 4 t : Vec Ideal S1x128 .f32) = (V c main_v25 : S1x128.Idx → EReal) := by
  have hi := idx_facts t
  funext x
  unfold iblk0
  rw [View.read_apply]
  refine congrArg (V c main_v25 : S1x128.Idx → EReal) (funext fun a => Fin.ext ?_)
  match a with
  | ⟨0, _⟩ => show win0_4.index t (0 : Fin 2) * 1 + 1 * (x 0).val = (x 0).val; rw [hi.2.2.2.2.2.2.2.2.1]; omega
  | ⟨1, _⟩ => show win0_4.index t (1 : Fin 2) * 128 + 1 * (x 1).val = (x 1).val; rw [hi.2.2.2.2.2.2.2.2.2.1]; omega

/-- Window 5 stages its whole array at every point. -/
theorem blk5_eq (c : Dev nD) (t : Fin cfg0.N) :
    (iblk0 V c 5 t : Vec Ideal S1x128 .f32) = (V c main_v26 : S1x128.Idx → EReal) := by
  have hi := idx_facts t
  funext x
  unfold iblk0
  rw [View.read_apply]
  refine congrArg (V c main_v26 : S1x128.Idx → EReal) (funext fun a => Fin.ext ?_)
  match a with
  | ⟨0, _⟩ => show win0_5.index t (0 : Fin 2) * 1 + 1 * (x 0).val = (x 0).val; rw [hi.2.2.2.2.2.2.2.2.2.2.1]; omega
  | ⟨1, _⟩ => show win0_5.index t (1 : Fin 2) * 128 + 1 * (x 1).val = (x 1).val; rw [hi.2.2.2.2.2.2.2.2.2.2.2.1]; omega

/-- Window 6 stages its whole array at every point. -/
theorem blk6_eq (c : Dev nD) (t : Fin cfg0.N) :
    (iblk0 V c 6 t : Vec Ideal S1x128 .f32) = (V c main_v27 : S1x128.Idx → EReal) := by
  have hi := idx_facts t
  funext x
  unfold iblk0
  rw [View.read_apply]
  refine congrArg (V c main_v27 : S1x128.Idx → EReal) (funext fun a => Fin.ext ?_)
  match a with
  | ⟨0, _⟩ => show win0_6.index t (0 : Fin 2) * 1 + 1 * (x 0).val = (x 0).val; rw [hi.2.2.2.2.2.2.2.2.2.2.2.2.1]; omega
  | ⟨1, _⟩ => show win0_6.index t (1 : Fin 2) * 128 + 1 * (x 1).val = (x 1).val; rw [hi.2.2.2.2.2.2.2.2.2.2.2.2.2.1]; omega

/-- Window 7 stages its whole array at every point. -/
theorem blk7_eq (c : Dev nD) (t : Fin cfg0.N) :
    (iblk0 V c 7 t : Vec Ideal S1x128 .f32) = (V c main_v28 : S1x128.Idx → EReal) := by
  have hi := idx_facts t
  funext x
  unfold iblk0
  rw [View.read_apply]
  refine congrArg (V c main_v28 : S1x128.Idx → EReal) (funext fun a => Fin.ext ?_)
  match a with
  | ⟨0, _⟩ => show win0_7.index t (0 : Fin 2) * 1 + 1 * (x 0).val = (x 0).val; rw [hi.2.2.2.2.2.2.2.2.2.2.2.2.2.2.1]; omega
  | ⟨1, _⟩ => show win0_7.index t (1 : Fin 2) * 128 + 1 * (x 1).val = (x 1).val; rw [hi.2.2.2.2.2.2.2.2.2.2.2.2.2.2.2.1]; omega

/-- Window 8 stages its whole array at every point. -/
theorem blk8_eq (c : Dev nD) (t : Fin cfg0.N) :
    (iblk0 V c 8 t : Vec Ideal S1x128 .f32) = (V c main_v29 : S1x128.Idx → EReal) := by
  have hi := idx_facts t
  funext x
  unfold iblk0
  rw [View.read_apply]
  refine congrArg (V c main_v29 : S1x128.Idx → EReal) (funext fun a => Fin.ext ?_)
  match a with
  | ⟨0, _⟩ => show win0_8.index t (0 : Fin 2) * 1 + 1 * (x 0).val = (x 0).val; rw [hi.2.2.2.2.2.2.2.2.2.2.2.2.2.2.2.2.1]; omega
  | ⟨1, _⟩ => show win0_8.index t (1 : Fin 2) * 128 + 1 * (x 1).val = (x 1).val; rw [hi.2.2.2.2.2.2.2.2.2.2.2.2.2.2.2.2.2.1]; omega

/-- The region's function of the operand arrays as it finds them. -/
def G (c : Dev nD) : S100352x128.Idx → EReal :=
  bnLayer (n := 100352) (V c main_v23 : S100352x128.Idx → EReal) (V c main_v24 : S100352x128.Idx → EReal) (V c main_arg2 : S128x128.Idx → EReal) (V c main_arg3 : S128x128.Idx → EReal)
    (ofRow (V c main_v25 : S1x128.Idx → EReal)) (ofRow (V c main_v26 : S1x128.Idx → EReal)) (ofRow (V c main_v27 : S1x128.Idx → EReal)) (ofRow (V c main_v28 : S1x128.Idx → EReal)) (ofRow (V c main_v29 : S1x128.Idx → EReal))

/-- Where an entry of the output block of point t sits in the output array. -/
theorem out_emb (t : Fin cfg0.N) (p : Fin 2048) (q : Fin 128) (P : Fin 100352) (hP : P.val = 2048 * t.val + p.val) :
    ((cfg0.win 9).blk t).view.emb (ix2 p q : S2048x128.Idx) = (ix2 P q : S100352x128.Idx) := by
  have hi := idx_facts t
  funext a
  apply Fin.ext
  match a with
  | ⟨0, _⟩ => show win0_9.index t (0 : Fin 2) * 2048 + 1 * p.val = P.val; rw [hi.2.2.2.2.2.2.2.2.2.2.2.2.2.2.2.2.2.2.1, hP]; omega
  | ⟨1, _⟩ => show win0_9.index t (1 : Fin 2) * 128 + 1 * q.val = q.val; rw [hi.2.2.2.2.2.2.2.2.2.2.2.2.2.2.2.2.2.2.2]; omega

/-- What point t writes back is block t of `G`. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  refine funext fun (j : S2048x128.Idx) => ?_
  obtain ⟨p, q, rfl⟩ : ∃ (p : Fin 2048) (q : Fin 128), j = ix2 p q := ⟨j 0, j 1, eq_ix2 j⟩
  have ht : t.val < 49 := by have h := t.isLt; have hN : cfg0.N = 49 := N_0; omega
  have hp : p.val < 2048 := p.isLt
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = G V c (((cfg0.win 9).blk t).view.emb (ix2 p q))
  rw [out_emb t p q ⟨2048 * t.val + p.val, by omega⟩ rfl, KBody.out0_9_apply (iblk0 V c 0 t) (iblk0 V c 1 t) (iblk0 V c 2 t) (iblk0 V c 3 t) (iblk0 V c 4 t) (iblk0 V c 5 t) (iblk0 V c 6 t) (iblk0 V c 7 t) (iblk0 V c 8 t) p q]
  unfold G
  rw [bnLayer_apply]
  have hr0 : rowOf (iblk0 V c 0 t : Vec Ideal S2048x128 .f32) p = rowOf (V c main_v23 : S100352x128.Idx → EReal) ⟨2048 * t.val + p.val, by omega⟩ :=
    funext fun k => blk0_apply V c t (ix2 p k) (ix2 ⟨2048 * t.val + p.val, by omega⟩ k) rfl rfl
  have hr1 : rowOf (iblk0 V c 1 t : Vec Ideal S2048x128 .f32) p = rowOf (V c main_v24 : S100352x128.Idx → EReal) ⟨2048 * t.val + p.val, by omega⟩ :=
    funext fun k => blk1_apply V c t (ix2 p k) (ix2 ⟨2048 * t.val + p.val, by omega⟩ k) rfl rfl
  rw [hr0, hr1, blk2_eq V c t, blk3_eq V c t, blk4_eq V c t, blk5_eq V c t, blk6_eq V c t, blk7_eq V c t, blk8_eq V c t]

/-- Every row of the output array is in some point's block. -/
theorem cover (i : S100352x128.Idx) : ∃ t : Fin cfg0.N, (cfg0.win 9).flush t = true ∧ i ∈ ((cfg0.win 9).blk t).view.set := by
  have h0 : (i 0).val < 100352 := (i 0).isLt
  have h1 : (i 1).val < 128 := (i 1).isLt
  have hN : cfg0.N = 49 := N_0
  have hlt : (i 0).val / 2048 < cfg0.N := by omega
  refine ⟨⟨(i 0).val / 2048, hlt⟩, flush0_9 _, ?_⟩
  have hi := idx_facts (⟨(i 0).val / 2048, hlt⟩ : Fin cfg0.N)
  show i ∈ ((View.whole main_v30).slice (win0_9.rect (⟨(i 0).val / 2048, hlt⟩ : Fin cfg0.N))).set
  rw [View.set_slice_whole, Rect.mem_set_unit]
  intro a
  match a with
  | ⟨0, _⟩ =>
    show win0_9.index (⟨(i 0).val / 2048, hlt⟩ : Fin cfg0.N) (0 : Fin 2) * 2048 ≤ (i 0).val ∧ (i 0).val < win0_9.index (⟨(i 0).val / 2048, hlt⟩ : Fin cfg0.N) (0 : Fin 2) * 2048 + 2048
    rw [hi.2.2.2.2.2.2.2.2.2.2.2.2.2.2.2.2.2.2.1]; show (i 0).val / 2048 * 2048 ≤ (i 0).val ∧ (i 0).val < (i 0).val / 2048 * 2048 + 2048; omega
  | ⟨1, _⟩ =>
    show win0_9.index (⟨(i 0).val / 2048, hlt⟩ : Fin cfg0.N) (1 : Fin 2) * 128 ≤ (i 1).val ∧ (i 1).val < win0_9.index (⟨(i 0).val / 2048, hlt⟩ : Fin cfg0.N) (1 : Fin 2) * 128 + 128
    rw [hi.2.2.2.2.2.2.2.2.2.2.2.2.2.2.2.2.2.2.2]; omega

/-- The output array after the region. -/
theorem arr_eq (c : Dev nD) : (dat0 V c).arrAt 9 cfg0.N = G V c :=
  (dat0 V c).arrAt_eq_of_cover 9 (G V c) (fun t _ => flushed_eq V c t) cover

end Cert.Sage.KReg0

end
-- ==== Proof.KReg1.lean ====
/-
  Region 1 of the kernel program read as one whole-array function.

  The region walks 49 grid points; point t stages rows 2048·t … 2048·t + 2047 of the two row operands (the weight and
  row-vector operands are staged whole), runs the body on the staged blocks, and writes the block of results back to
  rows 2048·t … of the output array.  Every entry of a block of results reads one row of the row operands, so the
  block written at point t is the block of ONE function of the operand arrays as the region finds them: the layer
  applied to the padded arrays.  The 49 blocks tile the 100352 rows, so the output array ends as that function.
-/
import proofs.«136776_j22454089023509_1_alg».proof.Proof.Gen.KernelIdeal.Frame
import proofs.«136776_j22454089023509_1_alg».proof.Proof.Spec
import proofs.«136776_j22454089023509_1_alg».proof.Proof.KBody
import Idealize.ShloMosaic.Lib.Pipeline.Value

set_option maxRecDepth 16384

noncomputable section

namespace Cert.Sage.KReg1

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the row windows sit at block row t, every other window at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Window 0's block at point t is rows 2048·t … of its array. -/
theorem blk0_apply (c : Dev nD) (t : Fin cfg1.N) (x : S2048x128.Idx) (k : S100352x128.Idx)
    (hk0 : (k 0).val = 2048 * t.val + (x 0).val) (hk1 : (k 1).val = (x 1).val) :
    (iblk1 V c 0 t : Vec Ideal S2048x128 .f32) x = (V c main_v51 : S100352x128.Idx → EReal) k := by
  have hi := idx_facts t
  unfold iblk1
  rw [View.read_apply]
  refine congrArg (V c main_v51 : S100352x128.Idx → EReal) (funext fun a => Fin.ext ?_)
  match a with
  | ⟨0, _⟩ => show win1_0.index t (0 : Fin 2) * 2048 + 1 * (x 0).val = (k 0).val; rw [hi.1, hk0]; omega
  | ⟨1, _⟩ => show win1_0.index t (1 : Fin 2) * 128 + 1 * (x 1).val = (k 1).val; rw [hi.2.1, hk1]; omega

/-- Window 1's block at point t is rows 2048·t … of its array. -/
theorem blk1_apply (c : Dev nD) (t : Fin cfg1.N) (x : S2048x128.Idx) (k : S100352x128.Idx)
    (hk0 : (k 0).val = 2048 * t.val + (x 0).val) (hk1 : (k 1).val = (x 1).val) :
    (iblk1 V c 1 t : Vec Ideal S2048x128 .f32) x = (V c main_v52 : S100352x128.Idx → EReal) k := by
  have hi := idx_facts t
  unfold iblk1
  rw [View.read_apply]
  refine congrArg (V c main_v52 : S100352x128.Idx → EReal) (funext fun a => Fin.ext ?_)
  match a with
  | ⟨0, _⟩ => show win1_1.index t (0 : Fin 2) * 2048 + 1 * (x 0).val = (k 0).val; rw [hi.2.2.1, hk0]; omega
  | ⟨1, _⟩ => show win1_1.index t (1 : Fin 2) * 128 + 1 * (x 1).val = (k 1).val; rw [hi.2.2.2.1, hk1]; omega

/-- Window 2 stages its whole array at every point. -/
theorem blk2_eq (c : Dev nD) (t : Fin cfg1.N) :
    (iblk1 V c 2 t : Vec Ideal S128x128 .f32) = (V c main_arg5 : S128x128.Idx → EReal) := by
  have hi := idx_facts t
  funext x
  unfold iblk1
  rw [View.read_apply]
  refine congrArg (V c main_arg5 : S128x128.Idx → EReal) (funext fun a => Fin.ext ?_)
  match a with
  | ⟨0, _⟩ => show win1_2.index t (0 : Fin 2) * 128 + 1 * (x 0).val = (x 0).val; rw [hi.2.2.2.2.1]; omega
  | ⟨1, _⟩ => show win1_2.index t (1 : Fin 2) * 128 + 1 * (x 1).val = (x 1).val; rw [hi.2.2.2.2.2.1]; omega

/-- Window 3 stages its whole array at every point. -/
theorem blk3_eq (c : Dev nD) (t : Fin cfg1.N) :
    (iblk1 V c 3 t : Vec Ideal S128x128 .f32) = (V c main_arg6 : S128x128.Idx → EReal) := by
  have hi := idx_facts t
  funext x
  unfold iblk1
  rw [View.read_apply]
  refine congrArg (V c main_arg6 : S128x128.Idx → EReal) (funext fun a => Fin.ext ?_)
  match a with
  | ⟨0, _⟩ => show win1_3.index t (0 : Fin 2) * 128 + 1 * (x 0).val = (x 0).val; rw [hi.2.2.2.2.2.2.1]; omega
  | ⟨1, _⟩ => show win1_3.index t (1 : Fin 2) * 128 + 1 * (x 1).val = (x 1).val; rw [hi.2.2.2.2.2.2.2.1]; omega

/-- Window 4 stages its whole array at every point. -/
theorem blk4_eq (c : Dev nD) (t : Fin cfg1.N) :
    (iblk1 V c 4 t : Vec Ideal S1x128 .f32) = (V c main_v53 : S1x128.Idx → EReal) := by
  have hi := idx_facts t
  funext x
  unfold iblk1
  rw [View.read_apply]
  refine congrArg (V c main_v53 : S1x128.Idx → EReal) (funext fun a => Fin.ext ?_)
  match a with
  | ⟨0, _⟩ => show win1_4.index t (0 : Fin 2) * 1 + 1 * (x 0).val = (x 0).val; rw [hi.2.2.2.2.2.2.2.2.1]; omega
  | ⟨1, _⟩ => show win1_4.index t (1 : Fin 2) * 128 + 1 * (x 1).val = (x 1).val; rw [hi.2.2.2.2.2.2.2.2.2.1]; omega

/-- Window 5 stages its whole array at every point. -/
theorem blk5_eq (c : Dev nD) (t : Fin cfg1.N) :
    (iblk1 V c 5 t : Vec Ideal S1x128 .f32) = (V c main_v54 : S1x128.Idx → EReal) := by
  have hi := idx_facts t
  funext x
  unfold iblk1
  rw [View.read_apply]
  refine congrArg (V c main_v54 : S1x128.Idx → EReal) (funext fun a => Fin.ext ?_)
  match a with
  | ⟨0, _⟩ => show win1_5.index t (0 : Fin 2) * 1 + 1 * (x 0).val = (x 0).val; rw [hi.2.2.2.2.2.2.2.2.2.2.1]; omega
  | ⟨1, _⟩ => show win1_5.index t (1 : Fin 2) * 128 + 1 * (x 1).val = (x 1).val; rw [hi.2.2.2.2.2.2.2.2.2.2.2.1]; omega

/-- Window 6 stages its whole array at every point. -/
theorem blk6_eq (c : Dev nD) (t : Fin cfg1.N) :
    (iblk1 V c 6 t : Vec Ideal S1x128 .f32) = (V c main_v55 : S1x128.Idx → EReal) := by
  have hi := idx_facts t
  funext x
  unfold iblk1
  rw [View.read_apply]
  refine congrArg (V c main_v55 : S1x128.Idx → EReal) (funext fun a => Fin.ext ?_)
  match a with
  | ⟨0, _⟩ => show win1_6.index t (0 : Fin 2) * 1 + 1 * (x 0).val = (x 0).val; rw [hi.2.2.2.2.2.2.2.2.2.2.2.2.1]; omega
  | ⟨1, _⟩ => show win1_6.index t (1 : Fin 2) * 128 + 1 * (x 1).val = (x 1).val; rw [hi.2.2.2.2.2.2.2.2.2.2.2.2.2.1]; omega

/-- Window 7 stages its whole array at every point. -/
theorem blk7_eq (c : Dev nD) (t : Fin cfg1.N) :
    (iblk1 V c 7 t : Vec Ideal S1x128 .f32) = (V c main_v56 : S1x128.Idx → EReal) := by
  have hi := idx_facts t
  funext x
  unfold iblk1
  rw [View.read_apply]
  refine congrArg (V c main_v56 : S1x128.Idx → EReal) (funext fun a => Fin.ext ?_)
  match a with
  | ⟨0, _⟩ => show win1_7.index t (0 : Fin 2) * 1 + 1 * (x 0).val = (x 0).val; rw [hi.2.2.2.2.2.2.2.2.2.2.2.2.2.2.1]; omega
  | ⟨1, _⟩ => show win1_7.index t (1 : Fin 2) * 128 + 1 * (x 1).val = (x 1).val; rw [hi.2.2.2.2.2.2.2.2.2.2.2.2.2.2.2.1]; omega

/-- Window 8 stages its whole array at every point. -/
theorem blk8_eq (c : Dev nD) (t : Fin cfg1.N) :
    (iblk1 V c 8 t : Vec Ideal S1x128 .f32) = (V c main_v57 : S1x128.Idx → EReal) := by
  have hi := idx_facts t
  funext x
  unfold iblk1
  rw [View.read_apply]
  refine congrArg (V c main_v57 : S1x128.Idx → EReal) (funext fun a => Fin.ext ?_)
  match a with
  | ⟨0, _⟩ => show win1_8.index t (0 : Fin 2) * 1 + 1 * (x 0).val = (x 0).val; rw [hi.2.2.2.2.2.2.2.2.2.2.2.2.2.2.2.2.1]; omega
  | ⟨1, _⟩ => show win1_8.index t (1 : Fin 2) * 128 + 1 * (x 1).val = (x 1).val; rw [hi.2.2.2.2.2.2.2.2.2.2.2.2.2.2.2.2.2.1]; omega

/-- The region's function of the operand arrays as it finds them. -/
def G (c : Dev nD) : S100352x128.Idx → EReal :=
  bnLayer (n := 100352) (V c main_v51 : S100352x128.Idx → EReal) (V c main_v52 : S100352x128.Idx → EReal) (V c main_arg5 : S128x128.Idx → EReal) (V c main_arg6 : S128x128.Idx → EReal)
    (ofRow (V c main_v53 : S1x128.Idx → EReal)) (ofRow (V c main_v54 : S1x128.Idx → EReal)) (ofRow (V c main_v55 : S1x128.Idx → EReal)) (ofRow (V c main_v56 : S1x128.Idx → EReal)) (ofRow (V c main_v57 : S1x128.Idx → EReal))

/-- Where an entry of the output block of point t sits in the output array. -/
theorem out_emb (t : Fin cfg1.N) (p : Fin 2048) (q : Fin 128) (P : Fin 100352) (hP : P.val = 2048 * t.val + p.val) :
    ((cfg1.win 9).blk t).view.emb (ix2 p q : S2048x128.Idx) = (ix2 P q : S100352x128.Idx) := by
  have hi := idx_facts t
  funext a
  apply Fin.ext
  match a with
  | ⟨0, _⟩ => show win1_9.index t (0 : Fin 2) * 2048 + 1 * p.val = P.val; rw [hi.2.2.2.2.2.2.2.2.2.2.2.2.2.2.2.2.2.2.1, hP]; omega
  | ⟨1, _⟩ => show win1_9.index t (1 : Fin 2) * 128 + 1 * q.val = q.val; rw [hi.2.2.2.2.2.2.2.2.2.2.2.2.2.2.2.2.2.2.2]; omega

/-- What point t writes back is block t of `G`. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  refine funext fun (j : S2048x128.Idx) => ?_
  obtain ⟨p, q, rfl⟩ : ∃ (p : Fin 2048) (q : Fin 128), j = ix2 p q := ⟨j 0, j 1, eq_ix2 j⟩
  have ht : t.val < 49 := by have h := t.isLt; have hN : cfg1.N = 49 := N_1; omega
  have hp : p.val < 2048 := p.isLt
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = G V c (((cfg1.win 9).blk t).view.emb (ix2 p q))
  rw [out_emb t p q ⟨2048 * t.val + p.val, by omega⟩ rfl, KBody.out1_9_apply (iblk1 V c 0 t) (iblk1 V c 1 t) (iblk1 V c 2 t) (iblk1 V c 3 t) (iblk1 V c 4 t) (iblk1 V c 5 t) (iblk1 V c 6 t) (iblk1 V c 7 t) (iblk1 V c 8 t) p q]
  unfold G
  rw [bnLayer_apply]
  have hr0 : rowOf (iblk1 V c 0 t : Vec Ideal S2048x128 .f32) p = rowOf (V c main_v51 : S100352x128.Idx → EReal) ⟨2048 * t.val + p.val, by omega⟩ :=
    funext fun k => blk0_apply V c t (ix2 p k) (ix2 ⟨2048 * t.val + p.val, by omega⟩ k) rfl rfl
  have hr1 : rowOf (iblk1 V c 1 t : Vec Ideal S2048x128 .f32) p = rowOf (V c main_v52 : S100352x128.Idx → EReal) ⟨2048 * t.val + p.val, by omega⟩ :=
    funext fun k => blk1_apply V c t (ix2 p k) (ix2 ⟨2048 * t.val + p.val, by omega⟩ k) rfl rfl
  rw [hr0, hr1, blk2_eq V c t, blk3_eq V c t, blk4_eq V c t, blk5_eq V c t, blk6_eq V c t, blk7_eq V c t, blk8_eq V c t]

/-- Every row of the output array is in some point's block. -/
theorem cover (i : S100352x128.Idx) : ∃ t : Fin cfg1.N, (cfg1.win 9).flush t = true ∧ i ∈ ((cfg1.win 9).blk t).view.set := by
  have h0 : (i 0).val < 100352 := (i 0).isLt
  have h1 : (i 1).val < 128 := (i 1).isLt
  have hN : cfg1.N = 49 := N_1
  have hlt : (i 0).val / 2048 < cfg1.N := by omega
  refine ⟨⟨(i 0).val / 2048, hlt⟩, flush1_9 _, ?_⟩
  have hi := idx_facts (⟨(i 0).val / 2048, hlt⟩ : Fin cfg1.N)
  show i ∈ ((View.whole main_v58).slice (win1_9.rect (⟨(i 0).val / 2048, hlt⟩ : Fin cfg1.N))).set
  rw [View.set_slice_whole, Rect.mem_set_unit]
  intro a
  match a with
  | ⟨0, _⟩ =>
    show win1_9.index (⟨(i 0).val / 2048, hlt⟩ : Fin cfg1.N) (0 : Fin 2) * 2048 ≤ (i 0).val ∧ (i 0).val < win1_9.index (⟨(i 0).val / 2048, hlt⟩ : Fin cfg1.N) (0 : Fin 2) * 2048 + 2048
    rw [hi.2.2.2.2.2.2.2.2.2.2.2.2.2.2.2.2.2.2.1]; show (i 0).val / 2048 * 2048 ≤ (i 0).val ∧ (i 0).val < (i 0).val / 2048 * 2048 + 2048; omega
  | ⟨1, _⟩ =>
    show win1_9.index (⟨(i 0).val / 2048, hlt⟩ : Fin cfg1.N) (1 : Fin 2) * 128 ≤ (i 1).val ∧ (i 1).val < win1_9.index (⟨(i 0).val / 2048, hlt⟩ : Fin cfg1.N) (1 : Fin 2) * 128 + 128
    rw [hi.2.2.2.2.2.2.2.2.2.2.2.2.2.2.2.2.2.2.2]; omega

/-- The output array after the region. -/
theorem arr_eq (c : Dev nD) : (dat1 V c).arrAt 9 cfg1.N = G V c :=
  (dat1 V c).arrAt_eq_of_cover 9 (G V c) (fun t _ => flushed_eq V c t) cover

end Cert.Sage.KReg1

end
-- ==== Proof.KReg2.lean ====
/-
  Region 2 of the kernel program read as one whole-array function.

  The region walks 49 grid points; point t stages rows 2048·t … 2048·t + 2047 of the two row operands (the weight and
  row-vector operands are staged whole), runs the body on the staged blocks, and writes the block of results back to
  rows 2048·t … of the output array.  Every entry of a block of results reads one row of the row operands, so the
  block written at point t is the block of ONE function of the operand arrays as the region finds them: the layer
  applied to the padded arrays.  The 49 blocks tile the 100352 rows, so the output array ends as that function.
-/
import proofs.«136776_j22454089023509_1_alg».proof.Proof.Gen.KernelIdeal.Frame
import proofs.«136776_j22454089023509_1_alg».proof.Proof.Spec
import proofs.«136776_j22454089023509_1_alg».proof.Proof.KBody
import Idealize.ShloMosaic.Lib.Pipeline.Value

set_option maxRecDepth 16384

noncomputable section

namespace Cert.Sage.KReg2

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the row windows sit at block row t, every other window at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 2048·t … of its array. -/
theorem blk0_apply (c : Dev nD) (t : Fin cfg2.N) (x : S2048x128.Idx) (k : S100352x128.Idx)
    (hk0 : (k 0).val = 2048 * t.val + (x 0).val) (hk1 : (k 1).val = (x 1).val) :
    (iblk2 V c 0 t : Vec Ideal S2048x128 .f32) x = (V c main_v79 : S100352x128.Idx → EReal) k := by
  have hi := idx_facts t
  unfold iblk2
  rw [View.read_apply]
  refine congrArg (V c main_v79 : S100352x128.Idx → EReal) (funext fun a => Fin.ext ?_)
  match a with
  | ⟨0, _⟩ => show win2_0.index t (0 : Fin 2) * 2048 + 1 * (x 0).val = (k 0).val; rw [hi.1, hk0]; omega
  | ⟨1, _⟩ => show win2_0.index t (1 : Fin 2) * 128 + 1 * (x 1).val = (k 1).val; rw [hi.2.1, hk1]; omega

/-- Window 1's block at point t is rows 2048·t … of its array. -/
theorem blk1_apply (c : Dev nD) (t : Fin cfg2.N) (x : S2048x128.Idx) (k : S100352x128.Idx)
    (hk0 : (k 0).val = 2048 * t.val + (x 0).val) (hk1 : (k 1).val = (x 1).val) :
    (iblk2 V c 1 t : Vec Ideal S2048x128 .f32) x = (V c main_v80 : S100352x128.Idx → EReal) k := by
  have hi := idx_facts t
  unfold iblk2
  rw [View.read_apply]
  refine congrArg (V c main_v80 : S100352x128.Idx → EReal) (funext fun a => Fin.ext ?_)
  match a with
  | ⟨0, _⟩ => show win2_1.index t (0 : Fin 2) * 2048 + 1 * (x 0).val = (k 0).val; rw [hi.2.2.1, hk0]; omega
  | ⟨1, _⟩ => show win2_1.index t (1 : Fin 2) * 128 + 1 * (x 1).val = (k 1).val; rw [hi.2.2.2.1, hk1]; omega

/-- Window 2 stages its whole array at every point. -/
theorem blk2_eq (c : Dev nD) (t : Fin cfg2.N) :
    (iblk2 V c 2 t : Vec Ideal S128x40 .f32) = (V c main_arg8 : S128x40.Idx → EReal) := by
  have hi := idx_facts t
  funext x
  unfold iblk2
  rw [View.read_apply]
  refine congrArg (V c main_arg8 : S128x40.Idx → EReal) (funext fun a => Fin.ext ?_)
  match a with
  | ⟨0, _⟩ => show win2_2.index t (0 : Fin 2) * 128 + 1 * (x 0).val = (x 0).val; rw [hi.2.2.2.2.1]; omega
  | ⟨1, _⟩ => show win2_2.index t (1 : Fin 2) * 40 + 1 * (x 1).val = (x 1).val; rw [hi.2.2.2.2.2.1]; omega

/-- Window 3 stages its whole array at every point. -/
theorem blk3_eq (c : Dev nD) (t : Fin cfg2.N) :
    (iblk2 V c 3 t : Vec Ideal S128x40 .f32) = (V c main_arg9 : S128x40.Idx → EReal) := by
  have hi := idx_facts t
  funext x
  unfold iblk2
  rw [View.read_apply]
  refine congrArg (V c main_arg9 : S128x40.Idx → EReal) (funext fun a => Fin.ext ?_)
  match a with
  | ⟨0, _⟩ => show win2_3.index t (0 : Fin 2) * 128 + 1 * (x 0).val = (x 0).val; rw [hi.2.2.2.2.2.2.1]; omega
  | ⟨1, _⟩ => show win2_3.index t (1 : Fin 2) * 40 + 1 * (x 1).val = (x 1).val; rw [hi.2.2.2.2.2.2.2.1]; omega

/-- Window 4 stages its whole array at every point. -/
theorem blk4_eq (c : Dev nD) (t : Fin cfg2.N) :
    (iblk2 V c 4 t : Vec Ideal S1x40 .f32) = (V c main_v81 : S1x40.Idx → EReal) := by
  have hi := idx_facts t
  funext x
  unfold iblk2
  rw [View.read_apply]
  refine congrArg (V c main_v81 : S1x40.Idx → EReal) (funext fun a => Fin.ext ?_)
  match a with
  | ⟨0, _⟩ => show win2_4.index t (0 : Fin 2) * 1 + 1 * (x 0).val = (x 0).val; rw [hi.2.2.2.2.2.2.2.2.1]; omega
  | ⟨1, _⟩ => show win2_4.index t (1 : Fin 2) * 40 + 1 * (x 1).val = (x 1).val; rw [hi.2.2.2.2.2.2.2.2.2.1]; omega

/-- The region's function of the operand arrays as it finds them. -/
def G (c : Dev nD) : S100352x40.Idx → EReal :=
  lsLayer (n := 100352) (V c main_v79 : S100352x128.Idx → EReal) (V c main_v80 : S100352x128.Idx → EReal) (V c main_arg8 : S128x40.Idx → EReal) (V c main_arg9 : S128x40.Idx → EReal)
    (ofRow (V c main_v81 : S1x40.Idx → EReal))

/-- Where an entry of the output block of point t sits in the output array. -/
theorem out_emb (t : Fin cfg2.N) (p : Fin 2048) (q : Fin 40) (P : Fin 100352) (hP : P.val = 2048 * t.val + p.val) :
    ((cfg2.win 5).blk t).view.emb (ix2 p q : S2048x40.Idx) = (ix2 P q : S100352x40.Idx) := by
  have hi := idx_facts t
  funext a
  apply Fin.ext
  match a with
  | ⟨0, _⟩ => show win2_5.index t (0 : Fin 2) * 2048 + 1 * p.val = P.val; rw [hi.2.2.2.2.2.2.2.2.2.2.1, hP]; omega
  | ⟨1, _⟩ => show win2_5.index t (1 : Fin 2) * 40 + 1 * q.val = q.val; rw [hi.2.2.2.2.2.2.2.2.2.2.2]; omega

/-- What point t writes back is block t of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  refine funext fun (j : S2048x40.Idx) => ?_
  obtain ⟨p, q, rfl⟩ : ∃ (p : Fin 2048) (q : Fin 40), j = ix2 p q := ⟨j 0, j 1, eq_ix2 j⟩
  have ht : t.val < 49 := by have h := t.isLt; have hN : cfg2.N = 49 := N_2; omega
  have hp : p.val < 2048 := p.isLt
  show out2_5 (iblk2 V c 0 t) (iblk2 V c 1 t) (iblk2 V c 2 t) (iblk2 V c 3 t) (iblk2 V c 4 t) (ix2 p q) = G V c (((cfg2.win 5).blk t).view.emb (ix2 p q))
  rw [out_emb t p q ⟨2048 * t.val + p.val, by omega⟩ rfl, KBody.out2_5_apply (iblk2 V c 0 t) (iblk2 V c 1 t) (iblk2 V c 2 t) (iblk2 V c 3 t) (iblk2 V c 4 t) p q]
  unfold G
  rw [lsLayer_apply]
  have hr0 : rowOf (iblk2 V c 0 t : Vec Ideal S2048x128 .f32) p = rowOf (V c main_v79 : S100352x128.Idx → EReal) ⟨2048 * t.val + p.val, by omega⟩ :=
    funext fun k => blk0_apply V c t (ix2 p k) (ix2 ⟨2048 * t.val + p.val, by omega⟩ k) rfl rfl
  have hr1 : rowOf (iblk2 V c 1 t : Vec Ideal S2048x128 .f32) p = rowOf (V c main_v80 : S100352x128.Idx → EReal) ⟨2048 * t.val + p.val, by omega⟩ :=
    funext fun k => blk1_apply V c t (ix2 p k) (ix2 ⟨2048 * t.val + p.val, by omega⟩ k) rfl rfl
  rw [hr0, hr1, blk2_eq V c t, blk3_eq V c t, blk4_eq V c t]

/-- Every row of the output array is in some point's block. -/
theorem cover (i : S100352x40.Idx) : ∃ t : Fin cfg2.N, (cfg2.win 5).flush t = true ∧ i ∈ ((cfg2.win 5).blk t).view.set := by
  have h0 : (i 0).val < 100352 := (i 0).isLt
  have h1 : (i 1).val < 40 := (i 1).isLt
  have hN : cfg2.N = 49 := N_2
  have hlt : (i 0).val / 2048 < cfg2.N := by omega
  refine ⟨⟨(i 0).val / 2048, hlt⟩, flush2_5 _, ?_⟩
  have hi := idx_facts (⟨(i 0).val / 2048, hlt⟩ : Fin cfg2.N)
  show i ∈ ((View.whole main_v82).slice (win2_5.rect (⟨(i 0).val / 2048, hlt⟩ : Fin cfg2.N))).set
  rw [View.set_slice_whole, Rect.mem_set_unit]
  intro a
  match a with
  | ⟨0, _⟩ =>
    show win2_5.index (⟨(i 0).val / 2048, hlt⟩ : Fin cfg2.N) (0 : Fin 2) * 2048 ≤ (i 0).val ∧ (i 0).val < win2_5.index (⟨(i 0).val / 2048, hlt⟩ : Fin cfg2.N) (0 : Fin 2) * 2048 + 2048
    rw [hi.2.2.2.2.2.2.2.2.2.2.1]; show (i 0).val / 2048 * 2048 ≤ (i 0).val ∧ (i 0).val < (i 0).val / 2048 * 2048 + 2048; omega
  | ⟨1, _⟩ =>
    show win2_5.index (⟨(i 0).val / 2048, hlt⟩ : Fin cfg2.N) (1 : Fin 2) * 40 ≤ (i 1).val ∧ (i 1).val < win2_5.index (⟨(i 0).val / 2048, hlt⟩ : Fin cfg2.N) (1 : Fin 2) * 40 + 40
    rw [hi.2.2.2.2.2.2.2.2.2.2.2]; omega

/-- The output array after the region. -/
theorem arr_eq (c : Dev nD) : (dat2 V c).arrAt 5 cfg2.N = G V c :=
  (dat2 V c).arrAt_eq_of_cover 5 (G V c) (fun t _ => flushed_eq V c t) cover

end Cert.Sage.KReg2

end
-- ==== Proof.Layout.lean ====
/-
  Zero-padding the rows and cutting them off again commutes with a row-local layer.

  The kernel pads the 100000 rows of its row operands to 100352 = 49 · 2048, applies a layer, and keeps the first
  100000 rows of the result.  An entry (p, q) of a layer reads row p of its row operands and nothing else of them, and
  row p < 100000 of a padded array is row p of the array.  So the kept rows are the layer applied to the unpadded
  arrays; what the layer computes on the 352 padding rows is never read.  Also: a length-c vector reshaped to a [1, c]
  row reads, at column q, the vector at q.
-/
import proofs.«136776_j22454089023509_1_alg».proof.Proof.Spec
import Idealize.ShloMosaic.Lib.Pipeline.Value
import Idealize.ShloMosaic.Lib.KernelVsHost

noncomputable section

namespace Cert.Sage

open Idealize.ShloMosaic Idealize.ShloMosaic.ValueIdx

/-- Row p < 100000 of a row-padded array is row p of the array. -/
theorem rowOf_pad (x : Mat 100000 128) (z : (⟨0, ![]⟩ : Shape).Idx → EReal)
    (hp : (⟨2, ![100000, 128]⟩ : Shape).Pads ![0, 0] ![352, 0] ![0, 0] ⟨2, ![100352, 128]⟩) (hu : 0 < (⟨0, ![]⟩ : Shape).numel)
    (p : Fin 100000) (P : Fin 100352) (hP : P.val = p.val) :
    rowOf (pad ⟨2, ![100352, 128]⟩ ![0, 0] ![352, 0] ![0, 0] x z hp hu : Mat 100352 128) P = rowOf x p := by
  funext k
  unfold rowOf
  refine pad_apply_of_inside _ _ _ x z hp hu (ix2 P k) (ix2 p k) fun a => ?_
  match a with
  | ⟨0, _⟩ => show P.val = 0 + p.val * (0 + 1); omega
  | ⟨1, _⟩ => show k.val = 0 + k.val * (0 + 1); omega

/-- The first 100000 rows of a hidden layer of padded arrays are the layer of the arrays. -/
theorem slice_bnLayer_pad (x a : Mat 100000 128) (z z' : (⟨0, ![]⟩ : Shape).Idx → EReal) (ws wn : Mat 128 128) (b g be mu var : Fin 128 → EReal)
    (hp : (⟨2, ![100000, 128]⟩ : Shape).Pads ![0, 0] ![352, 0] ![0, 0] ⟨2, ![100352, 128]⟩) (hu : 0 < (⟨0, ![]⟩ : Shape).numel)
    (hs : (⟨2, ![100352, 128]⟩ : Shape).Slices ![0, 0] ⟨2, ![100000, 128]⟩) :
    extractStridedSlice ⟨2, ![100000, 128]⟩ ![0, 0]
      (bnLayer (n := 100352) (pad ⟨2, ![100352, 128]⟩ ![0, 0] ![352, 0] ![0, 0] x z hp hu) (pad ⟨2, ![100352, 128]⟩ ![0, 0] ![352, 0] ![0, 0] a z' hp hu) ws wn b g be mu var) hs
      = bnLayer (n := 100000) x a ws wn b g be mu var := by
  funext i
  obtain ⟨p, q, rfl⟩ : ∃ (p : Fin 100000) (q : Fin 128), i = ix2 p q := ⟨i 0, i 1, eq_ix2 i⟩
  have hp' : p.val < 100352 := by have := p.isLt; omega
  refine (extractStridedSlice_apply _ _ hs (ix2 p q) (ix2 (⟨p.val, hp'⟩ : Fin 100352) q) fun a => ?_).trans ?_
  · match a with
    | ⟨0, _⟩ => show p.val = 0 + p.val; omega
    | ⟨1, _⟩ => show q.val = 0 + q.val; omega
  · rw [bnLayer_apply, bnLayer_apply, rowOf_pad x z hp hu p ⟨p.val, hp'⟩ rfl, rowOf_pad a z' hp hu p ⟨p.val, hp'⟩ rfl]

/-- The first 100000 rows of the output layer of padded arrays are the layer of the arrays. -/
theorem slice_lsLayer_pad (x a : Mat 100000 128) (z z' : (⟨0, ![]⟩ : Shape).Idx → EReal) (ws wn : Mat 128 40) (b : Fin 40 → EReal)
    (hp : (⟨2, ![100000, 128]⟩ : Shape).Pads ![0, 0] ![352, 0] ![0, 0] ⟨2, ![100352, 128]⟩) (hu : 0 < (⟨0, ![]⟩ : Shape).numel)
    (hs : (⟨2, ![100352, 40]⟩ : Shape).Slices ![0, 0] ⟨2, ![100000, 40]⟩) :
    extractStridedSlice ⟨2, ![100000, 40]⟩ ![0, 0]
      (lsLayer (n := 100352) (pad ⟨2, ![100352, 128]⟩ ![0, 0] ![352, 0] ![0, 0] x z hp hu) (pad ⟨2, ![100352, 128]⟩ ![0, 0] ![352, 0] ![0, 0] a z' hp hu) ws wn b) hs
      = lsLayer (n := 100000) x a ws wn b := by
  funext i
  obtain ⟨p, q, rfl⟩ : ∃ (p : Fin 100000) (q : Fin 40), i = ix2 p q := ⟨i 0, i 1, eq_ix2 i⟩
  have hp' : p.val < 100352 := by have := p.isLt; omega
  refine (extractStridedSlice_apply _ _ hs (ix2 p q) (ix2 (⟨p.val, hp'⟩ : Fin 100352) q) fun a => ?_).trans ?_
  · match a with
    | ⟨0, _⟩ => show p.val = 0 + p.val; omega
    | ⟨1, _⟩ => show q.val = 0 + q.val; omega
  · rw [lsLayer_apply, lsLayer_apply, rowOf_pad x z hp hu p ⟨p.val, hp'⟩ rfl, rowOf_pad a z' hp hu p ⟨p.val, hp'⟩ rfl]

/-- A length-c vector reshaped to a [1, c] row: column q of the row is entry q of the vector. -/
theorem ofRow_shapeCast {c : ℕ} (v : Vct c) (h : (⟨1, ![c]⟩ : Shape).ShapeCasts ⟨2, ![1, c]⟩) :
    ofRow (shapeCast ⟨2, ![1, c]⟩ v h : Mat 1 c) = ofVct v := by
  funext q
  unfold ofRow ofVct
  refine shapeCast_apply v h (ix2 (0 : Fin 1) q) (ix1 q) ?_
  rw [Shape.rowMajor_val_two, Shape.rowMajor_val_one]
  show q.val = 0 * c + q.val
  omega

end Cert.Sage

end
-- ==== Proof.KValue.lean ====
/-
  The kernel program's result as a function of its arguments.

  Follow the result buffer back through the program.  The last operation keeps the first 100000 rows of region 2's
  output; region 2's output is the log-softmax layer of the padded features and neighbour means it was given; those
  are the zero-padded second hidden layer and its neighbour means; and so on down to the arguments.  Padding the rows,
  applying a row-local layer and cutting the rows off again is the layer itself, so the padding disappears at every
  layer and what is left is the three-layer network of the specification, the neighbour-mean operator being the one
  chain of host operations `aggSD` over the edge lists read once from the edge array.
-/
import proofs.«136776_j22454089023509_1_alg».proof.Proof.KHost
import proofs.«136776_j22454089023509_1_alg».proof.Proof.KKeep
import proofs.«136776_j22454089023509_1_alg».proof.Proof.KReg0
import proofs.«136776_j22454089023509_1_alg».proof.Proof.KReg1
import proofs.«136776_j22454089023509_1_alg».proof.Proof.KReg2
import proofs.«136776_j22454089023509_1_alg».proof.Proof.Layout

set_option maxRecDepth 16384
set_option maxHeartbeats 2000000

noncomputable section

namespace Cert.Sage.KValue

open Cert.KernelIdeal Cert.KernelIdeal.Gen Cert.Sage Cert.Sage.KHost Cert.Sage.KKeep
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The neighbour-mean operator of the launch memory's edge array. -/
def nb (c : Dev nD) (h : FVec Ideal S100000x128 .f32) : FVec Ideal S100000x128 .f32 :=
  aggSD h (srcOf (m ((c : Thread nD τ).loc main_arg1))) (dstOf (m ((c : Thread nD τ).loc main_arg1)))

/-- The first hidden layer and the second, as functions of the launch memory. -/
def H1 (c : Dev nD) : FVec Ideal S100000x128 .f32 :=
  bnLayer (n := 100000) (m ((c : Thread nD τ).loc main_arg0)) (nb m c (m ((c : Thread nD τ).loc main_arg0)))
    (m ((c : Thread nD τ).loc main_arg2)) (m ((c : Thread nD τ).loc main_arg3)) (ofVct (m ((c : Thread nD τ).loc main_arg4)))
    (ofVct (m ((c : Thread nD τ).loc main_arg11))) (ofVct (m ((c : Thread nD τ).loc main_arg12))) (ofVct (m ((c : Thread nD τ).loc main_arg13))) (ofVct (m ((c : Thread nD τ).loc main_arg14)))
def H2 (c : Dev nD) : FVec Ideal S100000x128 .f32 :=
  bnLayer (n := 100000) (H1 m c) (nb m c (H1 m c))
    (m ((c : Thread nD τ).loc main_arg5)) (m ((c : Thread nD τ).loc main_arg6)) (ofVct (m ((c : Thread nD τ).loc main_arg7)))
    (ofVct (m ((c : Thread nD τ).loc main_arg15))) (ofVct (m ((c : Thread nD τ).loc main_arg16))) (ofVct (m ((c : Thread nD τ).loc main_arg17))) (ofVct (m ((c : Thread nD τ).loc main_arg18)))

/-! ## The first stretch and region 0 -/

theorem w0_arg (c : Dev nD) (r : Ref sig .tc) : W0 m ρ c (Proc.devRef .tc r) = m ((c : Thread nD τ).loc r) := rfl

theorem w1_arg (c : Dev nD) (r : Ref sig .tc) (h : r ∉ hostOps0_W) : W1 m ρ c (Proc.devRef .tc r) = m ((c : Thread nD τ).loc r) :=
  keep_hostOps0 (W0 m ρ c) r h
theorem w1_agg (c : Dev nD) : W1 m ρ c (Proc.devRef .tc main_v22) = nb m c (m ((c : Thread nD τ).loc main_arg0)) := agg0 (W0 m ρ c)
theorem w7_arg (c : Dev nD) (r : Ref sig .tc) (h : r ∉ hostOps1_W) : W7 m ρ c (Proc.devRef .tc r) = W6 m ρ c (Proc.devRef .tc r) :=
  keep_hostOps1 (W6 m ρ c) r h
theorem w13_arg (c : Dev nD) (r : Ref sig .tc) (h : r ∉ hostOps2_W) : W13 m ρ c (Proc.devRef .tc r) = W12 m ρ c (Proc.devRef .tc r) :=
  keep_hostOps2 (W12 m ρ c) r h

theorem w5_src (c : Dev nD) : W5 m ρ c (Proc.devRef .tc main_v1) = srcOf (m ((c : Thread nD τ).loc main_arg1)) :=
  (keep_tail0 _ main_v1 (by decide) (by decide) (by decide) (by decide)).trans (src0 (W0 m ρ c))
theorem w5_dst (c : Dev nD) : W5 m ρ c (Proc.devRef .tc main_v3) = dstOf (m ((c : Thread nD τ).loc main_arg1)) :=
  (keep_tail0 _ main_v3 (by decide) (by decide) (by decide) (by decide)).trans (dst0 (W0 m ρ c))

/-- An argument no region-0 window stages reaches region 0's exit untouched. -/
theorem w6_arg (c : Dev nD) (r : Ref sig .tc) (hr : ∀ w, Pipeline.arrRef spec0 w ≠ r)
    (h0 : r ∉ hostOps0_W) (h1 : r ∉ hostOps0_1_W) (h2 : r ∉ hostOps0_2_W) (h3 : r ∉ hostOps0_3_W) (h4 : r ∉ hostOps0_4_W) :
    W6 m ρ c (Proc.devRef .tc r) = m ((c : Thread nD τ).loc r) :=
  (W6_of_ne m ρ c r hr).trans (keep_all0 (W0 m ρ c) r h0 h1 h2 h3 h4)

/-- Region 0 leaves, in its output array, the first hidden layer of the padded arguments. -/
theorem w6_out (c : Dev nD) : ∃ z z', W6 m ρ c (Proc.devRef .tc main_v30) =
    bnLayer (n := 100352) (pad S100352x128 ![0, 0] ![352, 0] ![0, 0] (m ((c : Thread nD τ).loc main_arg0)) z pads_S100000x128_S100352x128_03520_000 h_S_) (pad S100352x128 ![0, 0] ![352, 0] ![0, 0] (nb m c (m ((c : Thread nD τ).loc main_arg0))) z' pads_S100000x128_S100352x128_03520_000 h_S_)
      (m ((c : Thread nD τ).loc main_arg2)) (m ((c : Thread nD τ).loc main_arg3)) (ofVct (m ((c : Thread nD τ).loc main_arg4)))
      (ofVct (m ((c : Thread nD τ).loc main_arg11))) (ofVct (m ((c : Thread nD τ).loc main_arg12))) (ofVct (m ((c : Thread nD τ).loc main_arg13))) (ofVct (m ((c : Thread nD τ).loc main_arg14))) := by
  obtain ⟨z, hz⟩ := padX0 (W1 m ρ c)
  obtain ⟨z', hz'⟩ := padA0 (W1 m ρ c)
  refine ⟨z, z', ?_⟩
  have e23 : (V5 m ρ c main_v23 : S100352x128.Idx → EReal) = pad S100352x128 ![0, 0] ![352, 0] ![0, 0] (m ((c : Thread nD τ).loc main_arg0)) z pads_S100000x128_S100352x128_03520_000 h_S_ :=
    hz.trans (by rw [w1_arg m ρ c main_arg0 (by decide)])
  have e24 : (V5 m ρ c main_v24 : S100352x128.Idx → EReal) = pad S100352x128 ![0, 0] ![352, 0] ![0, 0] (nb m c (m ((c : Thread nD τ).loc main_arg0))) z' pads_S100000x128_S100352x128_03520_000 h_S_ :=
    hz'.trans (by rw [w1_agg m ρ c])
  have e2 : (V5 m ρ c main_arg2 : S128x128.Idx → EReal) = m ((c : Thread nD τ).loc main_arg2) := keep_all0 (W0 m ρ c) main_arg2 (by decide) (by decide) (by decide) (by decide) (by decide)
  have e3 : (V5 m ρ c main_arg3 : S128x128.Idx → EReal) = m ((c : Thread nD τ).loc main_arg3) := keep_all0 (W0 m ρ c) main_arg3 (by decide) (by decide) (by decide) (by decide) (by decide)
  have r25 : ofRow (V5 m ρ c main_v25 : S1x128.Idx → EReal) = ofVct (m ((c : Thread nD τ).loc main_arg4)) := by
    rw [show (V5 m ρ c main_v25 : S1x128.Idx → EReal) = _ from row0_main_v25 (W1 m ρ c), ofRow_shapeCast, w1_arg m ρ c main_arg4 (by decide)]
  have r26 : ofRow (V5 m ρ c main_v26 : S1x128.Idx → EReal) = ofVct (m ((c : Thread nD τ).loc main_arg11)) := by
    rw [show (V5 m ρ c main_v26 : S1x128.Idx → EReal) = _ from row0_main_v26 (W1 m ρ c), ofRow_shapeCast, w1_arg m ρ c main_arg11 (by decide)]
  have r27 : ofRow (V5 m ρ c main_v27 : S1x128.Idx → EReal) = ofVct (m ((c : Thread nD τ).loc main_arg12)) := by
    rw [show (V5 m ρ c main_v27 : S1x128.Idx → EReal) = _ from row0_main_v27 (W1 m ρ c), ofRow_shapeCast, w1_arg m ρ c main_arg12 (by decide)]
  have r28 : ofRow (V5 m ρ c main_v28 : S1x128.Idx → EReal) = ofVct (m ((c : Thread nD τ).loc main_arg13)) := by
    rw [show (V5 m ρ c main_v28 : S1x128.Idx → EReal) = _ from row0_main_v28 (W1 m ρ c), ofRow_shapeCast, w1_arg m ρ c main_arg13 (by decide)]
  have r29 : ofRow (V5 m ρ c main_v29 : S1x128.Idx → EReal) = ofVct (m ((c : Thread nD τ).loc main_arg14)) := by
    rw [show (V5 m ρ c main_v29 : S1x128.Idx → EReal) = _ from row0_main_v29 (W1 m ρ c), ofRow_shapeCast, w1_arg m ρ c main_arg14 (by decide)]
  refine ((W6_arr m ρ c 9).trans (KReg0.arr_eq (V5 m ρ) c)).trans ?_
  unfold KReg0.G
  rw [e23, e24, e2, e3, r25, r26, r27, r28, r29]

theorem w6_src (c : Dev nD) : W6 m ρ c (Proc.devRef .tc main_v1) = srcOf (m ((c : Thread nD τ).loc main_arg1)) :=
  (W6_of_ne m ρ c main_v1 (by decide)).trans (w5_src m ρ c)
theorem w6_dst (c : Dev nD) : W6 m ρ c (Proc.devRef .tc main_v3) = dstOf (m ((c : Thread nD τ).loc main_arg1)) :=
  (W6_of_ne m ρ c main_v3 (by decide)).trans (w5_dst m ρ c)

/-! ## The second stretch and region 1 -/

/-- The features the second stretch works on: the first hidden layer, the padding rows cut off. -/
theorem w7_feat (c : Dev nD) : W7 m ρ c (Proc.devRef .tc main_v31) = H1 m c := by
  obtain ⟨z, z', h⟩ := w6_out m ρ c
  refine (feat1 (W6 m ρ c)).trans ?_
  rw [h]
  exact slice_bnLayer_pad (m ((c : Thread nD τ).loc main_arg0)) (nb m c (m ((c : Thread nD τ).loc main_arg0))) z z' (m ((c : Thread nD τ).loc main_arg2)) (m ((c : Thread nD τ).loc main_arg3)) _ _ _ _ _ pads_S100000x128_S100352x128_03520_000 h_S_ slices_S100352x128_S100000x128_0_0

/-- … and their neighbour means. -/
theorem w7_agg (c : Dev nD) : W7 m ρ c (Proc.devRef .tc main_v50) = nb m c (H1 m c) := by
  refine (agg1 (W6 m ρ c)).trans ?_
  rw [show extractStridedSlice S100000x128 ![0, 0] (W6 m ρ c (Proc.devRef .tc main_v30)) slices_S100352x128_S100000x128_0_0 = H1 m c from (feat1 (W6 m ρ c)).symm.trans (w7_feat m ρ c), w6_src m ρ c, w6_dst m ρ c]
  rfl

/-- A buffer that neither region 0 nor region 1 stages as an array and no operation so far writes. -/
theorem w12_arg (c : Dev nD) (r : Ref sig .tc) (hr0 : ∀ w, Pipeline.arrRef spec0 w ≠ r) (hr1 : ∀ w, Pipeline.arrRef spec1 w ≠ r)
    (h0 : r ∉ hostOps0_W) (h1 : r ∉ hostOps0_1_W) (h2 : r ∉ hostOps0_2_W) (h3 : r ∉ hostOps0_3_W) (h4 : r ∉ hostOps0_4_W)
    (k0 : r ∉ hostOps1_W) (k1 : r ∉ hostOps1_1_W) (k2 : r ∉ hostOps1_2_W) (k3 : r ∉ hostOps1_3_W) (k4 : r ∉ hostOps1_4_W) :
    W12 m ρ c (Proc.devRef .tc r) = m ((c : Thread nD τ).loc r) :=
  (W12_of_ne m ρ c r hr1).trans ((keep_all1 (W6 m ρ c) r k0 k1 k2 k3 k4).trans (w6_arg m ρ c r hr0 h0 h1 h2 h3 h4))

theorem w12_src (c : Dev nD) : W12 m ρ c (Proc.devRef .tc main_v1) = srcOf (m ((c : Thread nD τ).loc main_arg1)) :=
  (W12_of_ne m ρ c main_v1 (by decide)).trans ((keep_all1 (W6 m ρ c) main_v1 (by decide) (by decide) (by decide) (by decide) (by decide)).trans (w6_src m ρ c))
theorem w12_dst (c : Dev nD) : W12 m ρ c (Proc.devRef .tc main_v3) = dstOf (m ((c : Thread nD τ).loc main_arg1)) :=
  (W12_of_ne m ρ c main_v3 (by decide)).trans ((keep_all1 (W6 m ρ c) main_v3 (by decide) (by decide) (by decide) (by decide) (by decide)).trans (w6_dst m ρ c))

/-- Region 1 leaves, in its output array, the second hidden layer of the padded first one. -/
theorem w12_out (c : Dev nD) : ∃ z z', W12 m ρ c (Proc.devRef .tc main_v58) =
    bnLayer (n := 100352) (pad S100352x128 ![0, 0] ![352, 0] ![0, 0] (H1 m c) z pads_S100000x128_S100352x128_03520_000 h_S_) (pad S100352x128 ![0, 0] ![352, 0] ![0, 0] (nb m c (H1 m c)) z' pads_S100000x128_S100352x128_03520_000 h_S_)
      (m ((c : Thread nD τ).loc main_arg5)) (m ((c : Thread nD τ).loc main_arg6)) (ofVct (m ((c : Thread nD τ).loc main_arg7)))
      (ofVct (m ((c : Thread nD τ).loc main_arg15))) (ofVct (m ((c : Thread nD τ).loc main_arg16))) (ofVct (m ((c : Thread nD τ).loc main_arg17))) (ofVct (m ((c : Thread nD τ).loc main_arg18))) := by
  obtain ⟨z, hz⟩ := padX1 (W7 m ρ c)
  obtain ⟨z', hz'⟩ := padA1 (W7 m ρ c)
  refine ⟨z, z', ?_⟩
  have e51 : (V11 m ρ c main_v51 : S100352x128.Idx → EReal) = pad S100352x128 ![0, 0] ![352, 0] ![0, 0] (H1 m c) z pads_S100000x128_S100352x128_03520_000 h_S_ :=
    hz.trans (by rw [w7_feat m ρ c])
  have e52 : (V11 m ρ c main_v52 : S100352x128.Idx → EReal) = pad S100352x128 ![0, 0] ![352, 0] ![0, 0] (nb m c (H1 m c)) z' pads_S100000x128_S100352x128_03520_000 h_S_ :=
    hz'.trans (by rw [w7_agg m ρ c])
  have e5 : (V11 m ρ c main_arg5 : S128x128.Idx → EReal) = (m ((c : Thread nD τ).loc main_arg5)) :=
    (keep_all1 (W6 m ρ c) main_arg5 (by decide) (by decide) (by decide) (by decide) (by decide)).trans (w6_arg m ρ c main_arg5 (by decide) (by decide) (by decide) (by decide) (by decide) (by decide))
  have e6 : (V11 m ρ c main_arg6 : S128x128.Idx → EReal) = (m ((c : Thread nD τ).loc main_arg6)) :=
    (keep_all1 (W6 m ρ c) main_arg6 (by decide) (by decide) (by decide) (by decide) (by decide)).trans (w6_arg m ρ c main_arg6 (by decide) (by decide) (by decide) (by decide) (by decide) (by decide))
  have r53 : ofRow (V11 m ρ c main_v53 : S1x128.Idx → EReal) = ofVct (m ((c : Thread nD τ).loc main_arg7)) := by
    rw [show (V11 m ρ c main_v53 : S1x128.Idx → EReal) = _ from row1_main_v53 (W7 m ρ c), ofRow_shapeCast, w7_arg m ρ c main_arg7 (by decide), w6_arg m ρ c main_arg7 (by decide) (by decide) (by decide) (by decide) (by decide) (by decide)]
  have r54 : ofRow (V11 m ρ c main_v54 : S1x128.Idx → EReal) = ofVct (m ((c : Thread nD τ).loc main_arg15)) := by
    rw [show (V11 m ρ c main_v54 : S1x128.Idx → EReal) = _ from row1_main_v54 (W7 m ρ c), ofRow_shapeCast, w7_arg m ρ c main_arg15 (by decide), w6_arg m ρ c main_arg15 (by decide) (by decide) (by decide) (by decide) (by decide) (by decide)]
  have r55 : ofRow (V11 m ρ c main_v55 : S1x128.Idx → EReal) = ofVct (m ((c : Thread nD τ).loc main_arg16)) := by
    rw [show (V11 m ρ c main_v55 : S1x128.Idx → EReal) = _ from row1_main_v55 (W7 m ρ c), ofRow_shapeCast, w7_arg m ρ c main_arg16 (by decide), w6_arg m ρ c main_arg16 (by decide) (by decide) (by decide) (by decide) (by decide) (by decide)]
  have r56 : ofRow (V11 m ρ c main_v56 : S1x128.Idx → EReal) = ofVct (m ((c : Thread nD τ).loc main_arg17)) := by
    rw [show (V11 m ρ c main_v56 : S1x128.Idx → EReal) = _ from row1_main_v56 (W7 m ρ c), ofRow_shapeCast, w7_arg m ρ c main_arg17 (by decide), w6_arg m ρ c main_arg17 (by decide) (by decide) (by decide) (by decide) (by decide) (by decide)]
  have r57 : ofRow (V11 m ρ c main_v57 : S1x128.Idx → EReal) = ofVct (m ((c : Thread nD τ).loc main_arg18)) := by
    rw [show (V11 m ρ c main_v57 : S1x128.Idx → EReal) = _ from row1_main_v57 (W7 m ρ c), ofRow_shapeCast, w7_arg m ρ c main_arg18 (by decide), w6_arg m ρ c main_arg18 (by decide) (by decide) (by decide) (by decide) (by decide) (by decide)]
  refine ((W12_arr m ρ c 9).trans (KReg1.arr_eq (V11 m ρ) c)).trans ?_
  unfold KReg1.G
  rw [e51, e52, e5, e6, r53, r54, r55, r56, r57]

/-! ## The third stretch and region 2 -/

theorem w13_feat (c : Dev nD) : W13 m ρ c (Proc.devRef .tc main_v59) = H2 m c := by
  obtain ⟨z, z', h⟩ := w12_out m ρ c
  refine (feat2 (W12 m ρ c)).trans ?_
  rw [h]
  exact slice_bnLayer_pad (H1 m c) (nb m c (H1 m c)) z z' (m ((c : Thread nD τ).loc main_arg5)) (m ((c : Thread nD τ).loc main_arg6)) _ _ _ _ _ pads_S100000x128_S100352x128_03520_000 h_S_ slices_S100352x128_S100000x128_0_0

theorem w13_agg (c : Dev nD) : W13 m ρ c (Proc.devRef .tc main_v78) = nb m c (H2 m c) := by
  refine (agg2 (W12 m ρ c)).trans ?_
  rw [show extractStridedSlice S100000x128 ![0, 0] (W12 m ρ c (Proc.devRef .tc main_v58)) slices_S100352x128_S100000x128_0_0 = H2 m c from (feat2 (W12 m ρ c)).symm.trans (w13_feat m ρ c), w12_src m ρ c, w12_dst m ρ c]
  rfl

/-- Region 2 leaves, in its output array, the log-softmax layer of the padded second hidden layer. -/
theorem w18_out (c : Dev nD) : ∃ z z', W18 m ρ c (Proc.devRef .tc main_v82) =
    lsLayer (n := 100352) (pad S100352x128 ![0, 0] ![352, 0] ![0, 0] (H2 m c) z pads_S100000x128_S100352x128_03520_000 h_S_) (pad S100352x128 ![0, 0] ![352, 0] ![0, 0] (nb m c (H2 m c)) z' pads_S100000x128_S100352x128_03520_000 h_S_)
      (m ((c : Thread nD τ).loc main_arg8)) (m ((c : Thread nD τ).loc main_arg9)) (ofVct (m ((c : Thread nD τ).loc main_arg10))) := by
  obtain ⟨z, hz⟩ := padX2 (W13 m ρ c)
  obtain ⟨z', hz'⟩ := padA2 (W13 m ρ c)
  refine ⟨z, z', ?_⟩
  have e79 : (V17 m ρ c main_v79 : S100352x128.Idx → EReal) = pad S100352x128 ![0, 0] ![352, 0] ![0, 0] (H2 m c) z pads_S100000x128_S100352x128_03520_000 h_S_ :=
    hz.trans (by rw [w13_feat m ρ c])
  have e80 : (V17 m ρ c main_v80 : S100352x128.Idx → EReal) = pad S100352x128 ![0, 0] ![352, 0] ![0, 0] (nb m c (H2 m c)) z' pads_S100000x128_S100352x128_03520_000 h_S_ :=
    hz'.trans (by rw [w13_agg m ρ c])
  have e8 : (V17 m ρ c main_arg8 : S128x40.Idx → EReal) = (m ((c : Thread nD τ).loc main_arg8)) :=
    (keep_all2 (W12 m ρ c) main_arg8 (by decide) (by decide) (by decide) (by decide) (by decide)).trans (w12_arg m ρ c main_arg8 (by decide) (by decide) (by decide) (by decide) (by decide) (by decide) (by decide) (by decide) (by decide) (by decide) (by decide) (by decide))
  have e9 : (V17 m ρ c main_arg9 : S128x40.Idx → EReal) = (m ((c : Thread nD τ).loc main_arg9)) :=
    (keep_all2 (W12 m ρ c) main_arg9 (by decide) (by decide) (by decide) (by decide) (by decide)).trans (w12_arg m ρ c main_arg9 (by decide) (by decide) (by decide) (by decide) (by decide) (by decide) (by decide) (by decide) (by decide) (by decide) (by decide) (by decide))
  have r81 : ofRow (V17 m ρ c main_v81 : S1x40.Idx → EReal) = ofVct (m ((c : Thread nD τ).loc main_arg10)) := by
    rw [show (V17 m ρ c main_v81 : S1x40.Idx → EReal) = _ from row2_main_v81 (W13 m ρ c), ofRow_shapeCast, w13_arg m ρ c main_arg10 (by decide), w12_arg m ρ c main_arg10 (by decide) (by decide) (by decide) (by decide) (by decide) (by decide) (by decide) (by decide) (by decide) (by decide) (by decide) (by decide)]
  refine ((W18_arr m ρ c 5).trans (KReg2.arr_eq (V17 m ρ) c)).trans ?_
  unfold KReg2.G
  rw [e79, e80, e8, e9, r81]

/-! ## The result -/

/-- The kernel program's result buffer at the return: the three-layer network of the launch memory's arguments. -/
theorem result (c : Dev nD) : W19 m ρ c (Proc.devRef .tc main_v83) =
    net (n := 100000) (nb m c) (m ((c : Thread nD τ).loc main_arg0)) (m ((c : Thread nD τ).loc main_arg2)) (m ((c : Thread nD τ).loc main_arg3)) (ofVct (m ((c : Thread nD τ).loc main_arg4))) (m ((c : Thread nD τ).loc main_arg5)) (m ((c : Thread nD τ).loc main_arg6)) (ofVct (m ((c : Thread nD τ).loc main_arg7)))
      (m ((c : Thread nD τ).loc main_arg8)) (m ((c : Thread nD τ).loc main_arg9)) (ofVct (m ((c : Thread nD τ).loc main_arg10)))
      (ofVct (m ((c : Thread nD τ).loc main_arg11))) (ofVct (m ((c : Thread nD τ).loc main_arg12))) (ofVct (m ((c : Thread nD τ).loc main_arg13))) (ofVct (m ((c : Thread nD τ).loc main_arg14))) (ofVct (m ((c : Thread nD τ).loc main_arg15))) (ofVct (m ((c : Thread nD τ).loc main_arg16))) (ofVct (m ((c : Thread nD τ).loc main_arg17))) (ofVct (m ((c : Thread nD τ).loc main_arg18))) := by
  obtain ⟨z, z', h⟩ := w18_out m ρ c
  refine (out3 (W18 m ρ c)).trans ?_
  rw [h]
  exact slice_lsLayer_pad (H2 m c) (nb m c (H2 m c)) z z' (m ((c : Thread nD τ).loc main_arg8)) (m ((c : Thread nD τ).loc main_arg9)) _ pads_S100000x128_S100352x128_03520_000 h_S_ slices_S100352x40_S100000x40_0_0

end Cert.Sage.KValue

end
-- ==== Proof.lean ====
/-
  Kernel j22454089023509/1 against its reference: a three-layer mean-aggregation graph network over 100000 nodes and
  1600000 edges — two hidden layers (x·Ws + mean(x)·Wn + b, normalised with running statistics, clamped at zero) and a
  log-softmax output layer of 40 classes.

  Both programs form the neighbour means on the host by the same chain of gather, scatter-add and divide
  (`AggEq`).  The reference applies each layer to whole arrays (`RefLayers`, over the reference's run read one
  operation at a time).  The kernel program pads the 100000 rows to 49 blocks of 2048, runs each layer block by block
  in a kernel region (`KBody`: a block of results at an entry; `KReg0`–`KReg2`: the 49 blocks as one function of the
  padded arrays), and cuts the padding off again (`Layout`: a layer reads row p of its row operands only, so padding
  and cutting commute with it); `KValue` follows the result buffer back through the three regions to the
  arguments.  Over the extended reals a change of float format is the identity and a matrix product on the matrix unit
  is the plain sum the host's product is, so the two results are the same function `net` of the arguments (`Spec`),
  entry by entry — no law beyond unfolding is used, and the finiteness of the inputs is never needed.
-/
import proofs.«136776_j22454089023509_1_alg».proof.Defs
import proofs.«136776_j22454089023509_1_alg».proof.Proof.Gen.Kernel
import proofs.«136776_j22454089023509_1_alg».proof.Proof.Gen.Kernel.Skeleton
import proofs.«136776_j22454089023509_1_alg».proof.Proof.Gen.Kernel.Launch
import proofs.«136776_j22454089023509_1_alg».proof.Proof.Gen.Kernel.Points
import proofs.«136776_j22454089023509_1_alg».proof.Proof.Gen.Kernel.Frame
import proofs.«136776_j22454089023509_1_alg».proof.Proof.Gen.KernelIdeal
import proofs.«136776_j22454089023509_1_alg».proof.Proof.Gen.KernelIdeal.Skeleton
import proofs.«136776_j22454089023509_1_alg».proof.Proof.Gen.KernelIdeal.Launch
import proofs.«136776_j22454089023509_1_alg».proof.Proof.Gen.KernelIdeal.Points
import proofs.«136776_j22454089023509_1_alg».proof.Proof.Gen.KernelIdeal.Frame
import proofs.«136776_j22454089023509_1_alg».proof.Proof.Gen.ReferenceIdeal
import proofs.«136776_j22454089023509_1_alg».proof.Proof.Gen.Pre_finite_inputs
import proofs.«136776_j22454089023509_1_alg».proof.Proof.RunP
import proofs.«136776_j22454089023509_1_alg».proof.Proof.ReadP
import proofs.«136776_j22454089023509_1_alg».proof.Proof.RefLayers
import proofs.«136776_j22454089023509_1_alg».proof.Proof.AggEq
import proofs.«136776_j22454089023509_1_alg».proof.Proof.KRun
import proofs.«136776_j22454089023509_1_alg».proof.Proof.KValue
import Idealize.ShloMosaic.Adequacy
import Idealize.ShloMosaic.Init

set_option maxRecDepth 16384

noncomputable section

namespace Cert.Proof

open Idealize.ShloMosaic Idealize.SL.Sem Cert.Sage

/-- The two frames of the kernel program are generated whole; the reference's frame is its run with the result
    dropped. -/
theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- The kernel program's run with the result named: the network of the arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v83) = net (n := 100000) (KValue.nb m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ofVct (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ofVct (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (ofVct (m ((c.tc : Thread Cert.KernelIdeal.nD Cert.KernelIdeal.τ).loc Cert.KernelIdeal.main_arg10))) (ofVct (m ((c.tc : Thread Cert.KernelIdeal.nD Cert.KernelIdeal.τ).loc Cert.KernelIdeal.main_arg11))) (ofVct (m ((c.tc : Thread Cert.KernelIdeal.nD Cert.KernelIdeal.τ).loc Cert.KernelIdeal.main_arg12))) (ofVct (m ((c.tc : Thread Cert.KernelIdeal.nD Cert.KernelIdeal.τ).loc Cert.KernelIdeal.main_arg13))) (ofVct (m ((c.tc : Thread Cert.KernelIdeal.nD Cert.KernelIdeal.τ).loc Cert.KernelIdeal.main_arg14))) (ofVct (m ((c.tc : Thread Cert.KernelIdeal.nD Cert.KernelIdeal.τ).loc Cert.KernelIdeal.main_arg15))) (ofVct (m ((c.tc : Thread Cert.KernelIdeal.nD Cert.KernelIdeal.τ).loc Cert.KernelIdeal.main_arg16))) (ofVct (m ((c.tc : Thread Cert.KernelIdeal.nD Cert.KernelIdeal.τ).loc Cert.KernelIdeal.main_arg17))) (ofVct (m ((c.tc : Thread Cert.KernelIdeal.nD Cert.KernelIdeal.τ).loc Cert.KernelIdeal.main_arg18)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run (Cert.KernelIdeal.defs (F := Ideal)) _ _).mono (fun r h c =>
    ⟨(KRun.result_mem m ρ r h c).trans (KValue.result m ρ c),
     (h c _ (Cert.KernelIdeal.Gen.mem_uc Cert.KernelIdeal.main_arg0 (by decide))).trans (Cert.KernelIdeal.Gen.W19_main_arg0 m ρ c),
     (h c _ (Cert.KernelIdeal.Gen.mem_uc Cert.KernelIdeal.main_arg1 (by decide))).trans (Cert.KernelIdeal.Gen.W19_main_arg1 m ρ c),
     (h c _ (Cert.KernelIdeal.Gen.mem_uc Cert.KernelIdeal.main_arg2 (by decide))).trans (Cert.KernelIdeal.Gen.W19_main_arg2 m ρ c),
     (h c _ (Cert.KernelIdeal.Gen.mem_uc Cert.KernelIdeal.main_arg3 (by decide))).trans (Cert.KernelIdeal.Gen.W19_main_arg3 m ρ c),
     (h c _ (Cert.KernelIdeal.Gen.mem_uc Cert.KernelIdeal.main_arg4 (by decide))).trans (Cert.KernelIdeal.Gen.W19_main_arg4 m ρ c),
     (h c _ (Cert.KernelIdeal.Gen.mem_uc Cert.KernelIdeal.main_arg5 (by decide))).trans (Cert.KernelIdeal.Gen.W19_main_arg5 m ρ c),
     (h c _ (Cert.KernelIdeal.Gen.mem_uc Cert.KernelIdeal.main_arg6 (by decide))).trans (Cert.KernelIdeal.Gen.W19_main_arg6 m ρ c),
     (h c _ (Cert.KernelIdeal.Gen.mem_uc Cert.KernelIdeal.main_arg7 (by decide))).trans (Cert.KernelIdeal.Gen.W19_main_arg7 m ρ c),
     (h c _ (Cert.KernelIdeal.Gen.mem_uc Cert.KernelIdeal.main_arg8 (by decide))).trans (Cert.KernelIdeal.Gen.W19_main_arg8 m ρ c),
     (h c _ (Cert.KernelIdeal.Gen.mem_uc Cert.KernelIdeal.main_arg9 (by decide))).trans (Cert.KernelIdeal.Gen.W19_main_arg9 m ρ c),
     (h c _ (Cert.KernelIdeal.Gen.mem_uc Cert.KernelIdeal.main_arg10 (by decide))).trans (Cert.KernelIdeal.Gen.W19_main_arg10 m ρ c),
     (h c _ (Cert.KernelIdeal.Gen.mem_uc Cert.KernelIdeal.main_arg11 (by decide))).trans (Cert.KernelIdeal.Gen.W19_main_arg11 m ρ c),
     (h c _ (Cert.KernelIdeal.Gen.mem_uc Cert.KernelIdeal.main_arg12 (by decide))).trans (Cert.KernelIdeal.Gen.W19_main_arg12 m ρ c),
     (h c _ (Cert.KernelIdeal.Gen.mem_uc Cert.KernelIdeal.main_arg13 (by decide))).trans (Cert.KernelIdeal.Gen.W19_main_arg13 m ρ c),
     (h c _ (Cert.KernelIdeal.Gen.mem_uc Cert.KernelIdeal.main_arg14 (by decide))).trans (Cert.KernelIdeal.Gen.W19_main_arg14 m ρ c),
     (h c _ (Cert.KernelIdeal.Gen.mem_uc Cert.KernelIdeal.main_arg15 (by decide))).trans (Cert.KernelIdeal.Gen.W19_main_arg15 m ρ c),
     (h c _ (Cert.KernelIdeal.Gen.mem_uc Cert.KernelIdeal.main_arg16 (by decide))).trans (Cert.KernelIdeal.Gen.W19_main_arg16 m ρ c),
     (h c _ (Cert.KernelIdeal.Gen.mem_uc Cert.KernelIdeal.main_arg17 (by decide))).trans (Cert.KernelIdeal.Gen.W19_main_arg17 m ρ c),
     (h c _ (Cert.KernelIdeal.Gen.mem_uc Cert.KernelIdeal.main_arg18 (by decide))).trans (Cert.KernelIdeal.Gen.W19_main_arg18 m ρ c)⟩)
    (KRun.run_all (F := Ideal) m ρ)

/-- From memories agreeing on the arguments both programs end with the same network of the arguments. -/
theorem algebraic : Cert.algebraic_KernelIdeal_ReferenceIdeal := by
  intro m ρ m' ρ' _ hagree
  refine ⟨fun c => net (n := 100000) (KValue.nb m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ofVct (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ofVct (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (ofVct (m ((c.tc : Thread Cert.KernelIdeal.nD Cert.KernelIdeal.τ).loc Cert.KernelIdeal.main_arg10))) (ofVct (m ((c.tc : Thread Cert.KernelIdeal.nD Cert.KernelIdeal.τ).loc Cert.KernelIdeal.main_arg11))) (ofVct (m ((c.tc : Thread Cert.KernelIdeal.nD Cert.KernelIdeal.τ).loc Cert.KernelIdeal.main_arg12))) (ofVct (m ((c.tc : Thread Cert.KernelIdeal.nD Cert.KernelIdeal.τ).loc Cert.KernelIdeal.main_arg13))) (ofVct (m ((c.tc : Thread Cert.KernelIdeal.nD Cert.KernelIdeal.τ).loc Cert.KernelIdeal.main_arg14))) (ofVct (m ((c.tc : Thread Cert.KernelIdeal.nD Cert.KernelIdeal.τ).loc Cert.KernelIdeal.main_arg15))) (ofVct (m ((c.tc : Thread Cert.KernelIdeal.nD Cert.KernelIdeal.τ).loc Cert.KernelIdeal.main_arg16))) (ofVct (m ((c.tc : Thread Cert.KernelIdeal.nD Cert.KernelIdeal.τ).loc Cert.KernelIdeal.main_arg17))) (ofVct (m ((c.tc : Thread Cert.KernelIdeal.nD Cert.KernelIdeal.τ).loc Cert.KernelIdeal.main_arg18))), kernel_run m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v111_eq, Ref.result_eq]
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  have hnb : (fun h => Ref.agg h (m ((c.tc : Thread Cert.KernelIdeal.nD Cert.KernelIdeal.τ).loc Cert.KernelIdeal.main_arg1))) = KValue.nb m c := funext fun h => agg_eq h _
  rw [hnb]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
